-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1024 : Shape := ⟨2, ![200000, 1024]⟩
abbrev S32x1024 : Shape := ⟨2, ![32, 1024]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S200000x1024 : S_.BroadcastsInDim S200000x1024 (![] : Fin 0 → Fin S200000x1024.rank)
  reducesTo_S200000x1024_S_d0_1 : S200000x1024.ReducesTo [0, 1] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S32 .f32) (main_arg5 : FVec F S1x32 .f32) (main_arg6 : FVec F S1 .f32) (main_v13 : IVec S_ 1) (main_v16 : IVec S32x1024 1) : IVec S_ 1 :=
  let main_c_5 : IVec S_ 1 := constantI S_ 1 1#1
  let main_v17 : IVec S_ 1 := (fun x v => Host.reduce IntOp.andi x v reducesTo_S32x1024_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1x32 .f32 := Host.absf main_arg5
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S200000x1024 .f32) (main_arg1 : FVec F S32x1024 .f32) (main_arg2 : FVec F S32 .f32) (main_arg3 : FVec F S32x1024 .f32) (main_arg4 : FVec F S32 .f32) (main_arg5 : FVec F S1x32 .f32) (main_arg6 : FVec F S1 .f32) : IVec S_ 1 :=
  let main_v0 : FVec F S200000x1024 .f32 := Host.absf main_arg0
  let main_cst : FVec F S_ .f32 := constant S_ .f32 0x7F800000#32
  let main_v1 : FVec F S200000x1024 .f32 := broadcastInDim S200000x1024 ![] bcast_S_S200000x1024 main_cst
  let main_v2 : IVec S200000x1024 1 := cmpf .olt main_v0 main_v1
  let main_c : IVec S_ 1 := constantI S_ 1 1#1
  let main_v3 : IVec S_ 1 := (fun x v => Host.reduce IntOp.andi x v reducesTo_S200000x1024_S_d0_1 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1024 .f32 := Host.absf main_arg3
  let main_cst_4 : FVec F S_ .f32 := constant S_ .f32 0x7F800000#32
  let main_v15 : FVec F S32x1024 .f32 := broadcastInDim S32x1024 ![] bcast_S_S32x1024 main_cst_4
  let main_v16 : IVec S32x1024 1 := cmpf .olt main_v14 main_v15
  fn_part1 (F := F) main_arg4 main_arg5 main_arg6 main_v13 main_v16
-- ==== Kernel.lean ====
abbrev S200000x1024 : Shape := ⟨2, ![200000, 1024]⟩
abbrev S32x1024 : Shape := ⟨2, ![32, 1024]⟩
abbrev S32 : Shape := ⟨1, ![32]⟩
abbrev S1x32 : Shape := ⟨2, ![1, 32]⟩
abbrev S1 : Shape := ⟨1, ![1]⟩
abbrev S64x1024 : Shape := ⟨2, ![64, 1024]⟩
abbrev S64 : Shape := ⟨1, ![64]⟩
abbrev S1x64 : Shape := ⟨2, ![1, 64]⟩
abbrev S1x1 : Shape := ⟨2, ![1, 1]⟩
abbrev S2x1x1 : Shape := ⟨3, ![2, 1, 1]⟩
abbrev S2x1x1024 : Shape := ⟨3, ![2, 1, 1024]⟩
abbrev S2000x1024 : Shape := ⟨2, ![2000, 1024]⟩
abbrev S1x1x1 : Shape := ⟨3, ![1, 1, 1]⟩
abbrev S1x1x1024 : Shape := ⟨3, ![1, 1, 1024]⟩
abbrev S1x1024 : Shape := ⟨2, ![1, 1024]⟩
abbrev S1024x64 : Shape := ⟨2, ![1024, 64]⟩
abbrev S2000x64 : Shape := ⟨2, ![2000, 64]⟩
abbrev S2000x32 : Shape := ⟨2, ![2000, 32]⟩
abbrev S32x1 : Shape := ⟨2, ![32, 1]⟩
abbrev S2000x1 : Shape := ⟨2, ![2000, 1]⟩
abbrev S1x2000 : Shape := ⟨2, ![1, 2000]⟩
abbrev S_ : Shape := ⟨0, ![]⟩
abbrev S1024 : Shape := ⟨1, ![1024]⟩

abbrev nBuf : Space → Nat
  | .hbm => 44
  | .vmem => 15
  | .smem => 0
  | _ => 0

abbrev bufTy : (tb : Table) → Fin (tcTables nBuf tb) → BufTy
  | .hbm, ⟨0, _⟩ => ⟨S200000x1024, .f32⟩
  | .hbm, ⟨1, _⟩ => ⟨S32x1024, .f32⟩
  | .hbm, ⟨2, _⟩ => ⟨S32, .f32⟩
  | .hbm, ⟨3, _⟩ => ⟨S32x1024, .f32⟩
  | .hbm, ⟨4, _⟩ => ⟨S32, .f32⟩
  | .hbm, ⟨5, _⟩ => ⟨S1x32, .f32⟩
  | .hbm, ⟨6, _⟩ => ⟨S1, .f32⟩
  | .hbm, ⟨7, _⟩ => ⟨S64x1024, .f32⟩
  | .hbm, ⟨8, _⟩ => ⟨S64x1024, .bf16⟩
  | .hbm, ⟨9, _⟩ => ⟨S64, .f32⟩
  | .hbm, ⟨10, _⟩ => ⟨S1x64, .f32⟩
  | .hbm, ⟨11, _⟩ => ⟨S1x32, .bf16⟩
  | .hbm, ⟨12, _⟩ => ⟨S1x1, .f32⟩
  | .hbm, ⟨13, _⟩ => ⟨S2x1x1, .f32⟩
  | .hbm, ⟨14, _⟩ => ⟨S2x1x1, .f32⟩
  | .hbm, ⟨15, _⟩ => ⟨S2x1x1024, .f32⟩
  | .hbm, ⟨16, _⟩ => ⟨S1x1x1, .f32⟩
  | .hbm, ⟨17, _⟩ => ⟨S_, .f32⟩
  | .hbm, ⟨18, _⟩ => ⟨S1x1x1, .f32⟩
  | .hbm, ⟨19, _⟩ => ⟨S_, .f32⟩
  | .hbm, ⟨20, _⟩ => ⟨S1x1x1, .f32⟩
  | .hbm, ⟨21, _⟩ => ⟨S_, .f32⟩
  | .hbm, ⟨22, _⟩ => ⟨S1x1x1, .f32⟩
  | .hbm, ⟨23, _⟩ => ⟨S_, .f32⟩
  | .hbm, ⟨24, _⟩ => ⟨S1x1x1024, .f32⟩
  | .hbm, ⟨25, _⟩ => ⟨S1024, .f32⟩
  | .hbm, ⟨26, _⟩ => ⟨S1x1x1024, .f32⟩
  | .hbm, ⟨27, _⟩ => ⟨S1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1x1024, .f32⟩
  | .local _ .vmem, ⟨0, _⟩ => ⟨S2000x1024, .f32⟩
  | .local _ .vmem, ⟨1, _⟩ => ⟨S2000x1024, .f32⟩
  | .local _ .vmem, ⟨2, _⟩ => ⟨S64x1024, .bf16⟩
  | .local _ .vmem, ⟨3, _⟩ => ⟨S1x64, .f32⟩
  | .local _ .vmem, ⟨4, _⟩ => ⟨S1x32, .bf16⟩
  | .local _ .vmem, ⟨5, _⟩ => ⟨S1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1024, .f32⟩
  | .local _ .vmem, ⟨11, _⟩ => ⟨S1x1x1024, .f32⟩
  | .local _ .vmem, ⟨12, _⟩ => ⟨S1x1, .f32⟩
  | .local _ .vmem, ⟨13, _⟩ => ⟨S1x1, .f32⟩
  | .local _ .vmem, ⟨14, _⟩ => ⟨S1x1024, .f32⟩
  | _, _ => ⟨S200000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v58 : BitVec 1 := Scalar.cmpi .eq arg1 c49_i32
  let v59 : BitVec 32 := Scalar.extui v58
  let c0_i32_28 : BitVec 32 := 0#32
  let v60 : BitVec 1 := Scalar.cmpi .ne v59 c0_i32_28
  v60

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  concatenates_S32x1024_S32x1024_S64x1024_d0 : Shape.Concatenates [S32x1024, S32x1024] S64x1024 0
  bitsLt_bf16_f32 : FTy.bits .bf16 < FTy.bits .f32
  concatenates_S32_S32_S64_d0 : Shape.Concatenates [S32, S32] S64 0
  shapeCasts_S64_S1x64 : S64.ShapeCasts S1x64
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2000x1024_S2000x1024_0_0 : ∀ a, (![0, 0] : Fin 2 → Nat) a + S2000x1024.size a ≤ S2000x1024.size a
  h_S2000x1024 : 0 < S2000x1024.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  transposes_S64x1024_p1_0_S1024x64 : S64x1024.Transposes [1, 0] S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S2000x64_o0_0_S2000x32 : S2000x64.Slices ![0, 0] S2000x32
  slices_S2000x64_o0_32_S2000x32 : S2000x64.Slices ![0, 32] S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S1x32_p1_0_S32x1 : S1x32.Transposes [1, 0] S32x1
  broadcasts_S1x1_S2000x1 : S1x1.Broadcasts S2000x1
  reduces_S2000x1_S1 : S2000x1.Reduces [0] S1
  transposes_S2000x1_p1_0_S1x2000 : S2000x1.Transposes [1, 0] S1x2000
  broadcasts_S1x1_S1x1024 : S1x1.Broadcasts S1x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  slices_S2x1x1024_S1x1x1024_0_0_0 : S2x1x1024.Slices ![0, 0, 0] S1x1x1024
  shapeCasts_S1x1x1024_S1024 : S1x1x1024.ShapeCasts S1024
  slices_S2x1x1024_S1x1x1024_1_0_0 : S2x1x1024.Slices ![1, 0, 0] S1x1x1024
  bcast_S_S1024 : S_.BroadcastsInDim S1024 (![] : Fin 0 → Fin S1024.rank)
  shapeCasts_S1024_S1x1024 : S1024.ShapeCasts S1x1024
  dot_S2000x1024_S1024x64_S2000x64_1_0_0_1_n_n_wf : DotDims.WF S2000x1024 S1024x64 S2000x64 [1] [0] [0] [1] [] []
  dot_S2000x32_S32x1_S2000x1_1_0_0_1_n_n_wf : DotDims.WF S2000x32 S32x1 S2000x1 [1] [0] [0] [1] [] []
  dot_S1x2000_S2000x1024_S1x1024_1_0_0_1_n_n_wf : DotDims.WF S1x2000 S2000x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S200000x1024.size a
  hwx0_0 : ∀ i : grid0.Coords, EltTy.bits .f32 = 32 ∨ (Rect.block (s := S200000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .bf16 = 32 ∨ (Rect.block (s := S64x1024) S64x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .bf16 = 32 ∨ (Rect.block (s := S1x32) S1x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S2x1x1024.size a
  hwx0_7 : ∀ i : grid0.Coords, EltTy.bits .f32 = 32 ∨ (Rect.block (s := S2x1x1024) S1x1x1024.size (cc0_transform_7 i) (hinb0_7 i)).WholeWords (EltTy.packing .f32)

variable [Facts₀]

def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf
def dot_S1x2000_S2000x1024_S1x1024_1_0_0_1_n_n : DotDims S1x2000 S2000x1024 S1x1024 where
  lhsContracting := [1]
  rhsContracting := [0]
  lhsNonContracting := [0]
  rhsNonContracting := [1]
  lhsBatch := []
  rhsBatch := []
  wf := dot_S1x2000_S2000x1024_S1x1024_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S1x1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S200000x1024 : Shape := ⟨2, ![200000, 1024]⟩
abbrev S32x1024 : Shape := ⟨2, ![32, 1024]⟩
abbrev S32 : Shape := ⟨1, ![32]⟩
abbrev S1x32 : Shape := ⟨2, ![1, 32]⟩
abbrev S1 : Shape := ⟨1, ![1]⟩
abbrev S1024x32 : Shape := ⟨2, ![1024, 32]⟩
abbrev S200000x32 : Shape := ⟨2, ![200000, 32]⟩
abbrev S_ : Shape := ⟨0, ![]⟩
abbrev S32x1 : Shape := ⟨2, ![32, 1]⟩
abbrev S200000x1 : Shape := ⟨2, ![200000, 1]⟩
abbrev S1x1 : Shape := ⟨2, ![1, 1]⟩
abbrev S1x200000 : Shape := ⟨2, ![1, 200000]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S200000x1024, .f32⟩
  | .hbm, ⟨1, _⟩ => ⟨S32x1024, .f32⟩
  | .hbm, ⟨2, _⟩ => ⟨S32, .f32⟩
  | .hbm, ⟨3, _⟩ => ⟨S32x1024, .f32⟩
  | .hbm, ⟨4, _⟩ => ⟨S32, .f32⟩
  | .hbm, ⟨5, _⟩ => ⟨S1x32, .f32⟩
  | .hbm, ⟨6, _⟩ => ⟨S1, .f32⟩
  | .hbm, ⟨7, _⟩ => ⟨S1024x32, .f32⟩
  | .hbm, ⟨8, _⟩ => ⟨S200000x32, .f32⟩
  | .hbm, ⟨9, _⟩ => ⟨S1x32, .f32⟩
  | .hbm, ⟨10, _⟩ => ⟨S200000x32, .f32⟩
  | .hbm, ⟨11, _⟩ => ⟨S200000x32, .f32⟩
  | .hbm, ⟨12, _⟩ => ⟨S200000x32, .f32⟩
  | .hbm, ⟨13, _⟩ => ⟨S1024x32, .f32⟩
  | .hbm, ⟨14, _⟩ => ⟨S200000x32, .f32⟩
  | .hbm, ⟨15, _⟩ => ⟨S1x32, .f32⟩
  | .hbm, ⟨16, _⟩ => ⟨S200000x32, .f32⟩
  | .hbm, ⟨17, _⟩ => ⟨S200000x32, .f32⟩
  | .hbm, ⟨18, _⟩ => ⟨S200000x32, .f32⟩
  | .hbm, ⟨19, _⟩ => ⟨S200000x32, .f32⟩
  | .hbm, ⟨20, _⟩ => ⟨S_, .f32⟩
  | .hbm, ⟨21, _⟩ => ⟨S200000x32, .f32⟩
  | .hbm, ⟨22, _⟩ => ⟨S200000x32, .f32⟩
  | .hbm, ⟨23, _⟩ => ⟨S_, .f32⟩
  | .hbm, ⟨24, _⟩ => ⟨S200000x32, .f32⟩
  | .hbm, ⟨25, _⟩ => ⟨S200000x32, .f32⟩
  | .hbm, ⟨26, _⟩ => ⟨S200000x32, .f32⟩
  | .hbm, ⟨27, _⟩ => ⟨S32x1, .f32⟩
  | .hbm, ⟨28, _⟩ => ⟨S200000x1, .f32⟩
  | .hbm, ⟨29, _⟩ => ⟨S1x1, .f32⟩
  | .hbm, ⟨30, _⟩ => ⟨S200000x1, .f32⟩
  | .hbm, ⟨31, _⟩ => ⟨S200000x1, .f32⟩
  | .hbm, ⟨32, _⟩ => ⟨S1x200000, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1x1, .f32⟩
  | .hbm, ⟨39, _⟩ => ⟨S1x200000, .f32⟩
  | .hbm, ⟨40, _⟩ => ⟨S1x200000, .f32⟩
  | .hbm, ⟨41, _⟩ => ⟨S1x200000, .f32⟩
  | .hbm, ⟨42, _⟩ => ⟨S_, .f32⟩
  | .hbm, ⟨43, _⟩ => ⟨S1, .f32⟩
  | .hbm, ⟨44, _⟩ => ⟨S1x1, .f32⟩
  | .hbm, ⟨45, _⟩ => ⟨S1x200000, .f32⟩
  | .hbm, ⟨46, _⟩ => ⟨S1x200000, .f32⟩
  | .hbm, ⟨47, _⟩ => ⟨S1x1024, .f32⟩
  | _, _ => ⟨S200000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  transposes_S32x1024_S1024x32_1_0 : S32x1024.Transposes [1, 0] S1024x32
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  transposes_S1x32_S32x1_1_0 : S1x32.Transposes [1, 0] S32x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  transposes_S200000x1_S1x200000_1_0 : S200000x1.Transposes [1, 0] S1x200000
  reducesTo_S1x200000_S1_d1 : S1x200000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x200000_0_1 : S1x1.BroadcastsInDim S1x200000 (![0, 1] : Fin 2 → Fin S1x200000.rank)
  dot_S200000x1024_S1024x32_S200000x32_1_0_0_1_n_n_wf : DotDims.WF S200000x1024 S1024x32 S200000x32 [1] [0] [0] [1] [] []
  dot_S200000x32_S32x1_S200000x1_1_0_0_1_n_n_wf : DotDims.WF S200000x32 S32x1 S200000x1 [1] [0] [0] [1] [] []
  dot_S1x200000_S200000x1024_S1x1024_1_0_0_1_n_n_wf : DotDims.WF S1x200000 S200000x1024 S1x1024 [1] [0] [0] [1] [] []

variable [Facts₀]

def dot_S200000x1024_S1024x32_S200000x32_1_0_0_1_n_n : DotDims S200000x1024 S1024x32 S200000x32 where
  lhsContracting := [1]
  rhsContracting := [0]
  lhsNonContracting := [0]
  rhsNonContracting := [1]
  lhsBatch := []
  rhsBatch := []
  wf := dot_S200000x1024_S1024x32_S200000x32_1_0_0_1_n_n_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf
def dot_S1x200000_S200000x1024_S1x1024_1_0_0_1_n_n : DotDims S1x200000 S200000x1024 S1x1024 where
  lhsContracting := [1]
  rhsContracting := [0]
  lhsNonContracting := [0]
  rhsNonContracting := [1]
  lhsBatch := []
  rhsBatch := []
  wf := dot_S1x200000_S200000x1024_S1x1024_1_0_0_1_n_n_wf

class Facts : Prop extends Facts₀ where

variable [Facts]
-- ==== Proof.Pieces.lean ====
import proofs.«120143_j45724221833328_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! What one grid point does to the running triple, as pure functions of the point's input blocks and of the triple
the point before left: the new maximum, the rescaled sum of exponentials, and the rescaled weighted row sum. -/

/-- The new running maximum: the old one against the block's largest logit. -/
def stepM (x0 : Vec F S2000x1024 .f32) (x1 : Vec F S64x1024 .bf16) (x2 : Vec F S1x64 .f32) (x3 : Vec F S1x32 .bf16)
    (x4 : Vec F S1x1 .f32) (s0 : Vec F S1x1 .f32) : Vec F S1x1 .f32 :=
  k0_pay3 (k0_pay12 x0 x1 x2 x3 x4 s0)

/-- The new sum of exponentials: the old one rescaled, plus the block's exponentials at the new maximum. -/
def stepL (x0 : Vec F S2000x1024 .f32) (x1 : Vec F S64x1024 .bf16) (x2 : Vec F S1x64 .f32) (x3 : Vec F S1x32 .bf16)
    (x4 : Vec F S1x1 .f32) (s0 s1 : Vec F S1x1 .f32) : Vec F S1x1 .f32 :=
  k0_pay1 (k0_pay13 x0 x1 x2 x3 x4 s0 s0) (k0_pay14 x0 x1 x2 x3 x4 s0) s1

/-- The new weighted row sum: the old one rescaled, plus the block's rows weighted by their exponentials. -/
def stepA (x0 : Vec F S2000x1024 .f32) (x1 : Vec F S64x1024 .bf16) (x2 : Vec F S1x64 .f32) (x3 : Vec F S1x32 .bf16)
    (x4 : Vec F S1x1 .f32) (s0 : Vec F S1x1 .f32) (s2 : Vec F S1x1024 .f32) : Vec F S1x1024 .f32 :=
  k0_pay2 (k0_pay10 x0) (k0_pay13 x0 x1 x2 x3 x4 s0 s0) (k0_pay14 x0 x1 x2 x3 x4 s0) s2

theorem sA0 (c : Dev nD) (i : grid0.Coords) (arg2 : Memref sig .tc .vmem S2000x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x32 .bf16) (harg5 : arg5.IsWhole) (arg6 : Memref sig .tc .vmem S1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : cond0_0 i) (hc1 : ¬cond0_1 i) (x0 : Vec F S2000x1024 .f32) (x1 : Vec F S64x1024 .bf16) (x2 : Vec F S1x64 .f32) (x3 : Vec F S1x32 .bf16) (x4 : Vec F S1x1 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 = stepM x0 x1 x2 x3 x4 k0_pay7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_cons_unit_zero hz2]
  simp only [View.readCov_unit_zero (S := S1x1) _ hz2, View.readCov_unit_zero (S := S1x1024) _ hz2, View.readAt_eq_ld, harg2.read_unread, harg3.read_unread, harg4.read_unread, harg5.read_unread, harg6.read_unread, harg10.read_unread, harg11.read_unread, harg12.read_unread, View.ld_unit_zero (S := S1x1) hz2, View.ld_unit_zero (S := S2000x1024) hz2, View.ld_unit_zero (S := S64x1024) hz2, View.ld_unit_zero (S := S1x64) hz2, View.ld_unit_zero (S := S1x32) hz2, View.ld_unit_zero (S := S1x1024) hz2]
  try rfl

theorem sA1 (c : Dev nD) (i : grid0.Coords) (arg2 : Memref sig .tc .vmem S2000x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x32 .bf16) (harg5 : arg5.IsWhole) (arg6 : Memref sig .tc .vmem S1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : cond0_0 i) (hc1 : ¬cond0_1 i) (x0 : Vec F S2000x1024 .f32) (x1 : Vec F S64x1024 .bf16) (x2 : Vec F S1x64 .f32) (x3 : Vec F S1x32 .bf16) (x4 : Vec F S1x1 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 = stepL x0 x1 x2 x3 x4 k0_pay7 k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_cons_unit_zero hz2]
  simp only [View.readCov_unit_zero (S := S1x1) _ hz2, View.readCov_unit_zero (S := S1x1024) _ hz2, View.readAt_eq_ld, harg2.read_unread, harg3.read_unread, harg4.read_unread, harg5.read_unread, harg6.read_unread, harg10.read_unread, harg11.read_unread, harg12.read_unread, View.ld_unit_zero (S := S1x1) hz2, View.ld_unit_zero (S := S2000x1024) hz2, View.ld_unit_zero (S := S64x1024) hz2, View.ld_unit_zero (S := S1x64) hz2, View.ld_unit_zero (S := S1x32) hz2, View.ld_unit_zero (S := S1x1024) hz2]
  try rfl

theorem sA2 (c : Dev nD) (i : grid0.Coords) (arg2 : Memref sig .tc .vmem S2000x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x32 .bf16) (harg5 : arg5.IsWhole) (arg6 : Memref sig .tc .vmem S1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : cond0_0 i) (hc1 : ¬cond0_1 i) (x0 : Vec F S2000x1024 .f32) (x1 : Vec F S64x1024 .bf16) (x2 : Vec F S1x64 .f32) (x3 : Vec F S1x32 .bf16) (x4 : Vec F S1x1 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 = stepA x0 x1 x2 x3 x4 k0_pay7 k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_cons_unit_zero hz2]
  simp only [View.readCov_unit_zero (S := S1x1) _ hz2, View.readCov_unit_zero (S := S1x1024) _ hz2, View.readAt_eq_ld, harg2.read_unread, harg3.read_unread, harg4.read_unread, harg5.read_unread, harg6.read_unread, harg10.read_unread, harg11.read_unread, harg12.read_unread, View.ld_unit_zero (S := S1x1) hz2, View.ld_unit_zero (S := S2000x1024) hz2, View.ld_unit_zero (S := S64x1024) hz2, View.ld_unit_zero (S := S1x64) hz2, View.ld_unit_zero (S := S1x32) hz2, View.ld_unit_zero (S := S1x1024) hz2]
  try rfl

theorem sB0 (c : Dev nD) (i : grid0.Coords) (arg2 : Memref sig .tc .vmem S2000x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x32 .bf16) (harg5 : arg5.IsWhole) (arg6 : Memref sig .tc .vmem S1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : ¬cond0_1 i) (x0 : Vec F S2000x1024 .f32) (x1 : Vec F S64x1024 .bf16) (x2 : Vec F S1x64 .f32) (x3 : Vec F S1x32 .bf16) (x4 : Vec F S1x1 .f32) (xs0 : Vec F S1x1 .f32) (xs1 : Vec F S1x1 .f32) (xs2 : Vec F S1x1024 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = stepM x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_B
  dsimp only
  sl_unfold_words
  rw [View.canon_cons_unit_zero hz2]
  simp only [View.readCov_unit_zero (S := S1x1) _ hz2, View.readCov_unit_zero (S := S1x1024) _ hz2, View.readAt_eq_ld, harg2.read_unread, harg3.read_unread, harg4.read_unread, harg5.read_unread, harg6.read_unread, harg10.read_unread, harg11.read_unread, harg12.read_unread, View.ld_unit_zero (S := S1x1) hz2, View.ld_unit_zero (S := S2000x1024) hz2, View.ld_unit_zero (S := S64x1024) hz2, View.ld_unit_zero (S := S1x64) hz2, View.ld_unit_zero (S := S1x32) hz2, View.ld_unit_zero (S := S1x1024) hz2]
  try rfl

theorem sB1 (c : Dev nD) (i : grid0.Coords) (arg2 : Memref sig .tc .vmem S2000x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x32 .bf16) (harg5 : arg5.IsWhole) (arg6 : Memref sig .tc .vmem S1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : ¬cond0_1 i) (x0 : Vec F S2000x1024 .f32) (x1 : Vec F S64x1024 .bf16) (x2 : Vec F S1x64 .f32) (x3 : Vec F S1x32 .bf16) (x4 : Vec F S1x1 .f32) (xs0 : Vec F S1x1 .f32) (xs1 : Vec F S1x1 .f32) (xs2 : Vec F S1x1024 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = stepL x0 x1 x2 x3 x4 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_B
  dsimp only
  sl_unfold_words
  rw [View.canon_cons_unit_zero hz2]
  simp only [View.readCov_unit_zero (S := S1x1) _ hz2, View.readCov_unit_zero (S := S1x1024) _ hz2, View.readAt_eq_ld, harg2.read_unread, harg3.read_unread, harg4.read_unread, harg5.read_unread, harg6.read_unread, harg10.read_unread, harg11.read_unread, harg12.read_unread, View.ld_unit_zero (S := S1x1) hz2, View.ld_unit_zero (S := S2000x1024) hz2, View.ld_unit_zero (S := S64x1024) hz2, View.ld_unit_zero (S := S1x64) hz2, View.ld_unit_zero (S := S1x32) hz2, View.ld_unit_zero (S := S1x1024) hz2]
  try rfl

theorem sB2 (c : Dev nD) (i : grid0.Coords) (arg2 : Memref sig .tc .vmem S2000x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x32 .bf16) (harg5 : arg5.IsWhole) (arg6 : Memref sig .tc .vmem S1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : ¬cond0_1 i) (x0 : Vec F S2000x1024 .f32) (x1 : Vec F S64x1024 .bf16) (x2 : Vec F S1x64 .f32) (x3 : Vec F S1x32 .bf16) (x4 : Vec F S1x1 .f32) (xs0 : Vec F S1x1 .f32) (xs1 : Vec F S1x1 .f32) (xs2 : Vec F S1x1024 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = stepA x0 x1 x2 x3 x4 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_B
  dsimp only
  sl_unfold_words
  rw [View.canon_cons_unit_zero hz2]
  simp only [View.readCov_unit_zero (S := S1x1) _ hz2, View.readCov_unit_zero (S := S1x1024) _ hz2, View.readAt_eq_ld, harg2.read_unread, harg3.read_unread, harg4.read_unread, harg5.read_unread, harg6.read_unread, harg10.read_unread, harg11.read_unread, harg12.read_unread, View.ld_unit_zero (S := S1x1) hz2, View.ld_unit_zero (S := S2000x1024) hz2, View.ld_unit_zero (S := S64x1024) hz2, View.ld_unit_zero (S := S1x64) hz2, View.ld_unit_zero (S := S1x32) hz2, View.ld_unit_zero (S := S1x1024) hz2]
  try rfl

theorem sC0 (c : Dev nD) (i : grid0.Coords) (arg2 : Memref sig .tc .vmem S2000x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x32 .bf16) (harg5 : arg5.IsWhole) (arg6 : Memref sig .tc .vmem S1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : cond0_1 i) (x0 : Vec F S2000x1024 .f32) (x1 : Vec F S64x1024 .bf16) (x2 : Vec F S1x64 .f32) (x3 : Vec F S1x32 .bf16) (x4 : Vec F S1x1 .f32) (xs0 : Vec F S1x1 .f32) (xs1 : Vec F S1x1 .f32) (xs2 : Vec F S1x1024 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = stepM x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  rw [View.canon_cons_unit_zero hz2]
  simp only [View.readCov_unit_zero (S := S1x1) _ hz2, View.readCov_unit_zero (S := S1x1024) _ hz2, View.readAt_eq_ld, harg2.read_unread, harg3.read_unread, harg4.read_unread, harg5.read_unread, harg6.read_unread, harg10.read_unread, harg11.read_unread, harg12.read_unread, View.ld_unit_zero (S := S1x1) hz2, View.ld_unit_zero (S := S2000x1024) hz2, View.ld_unit_zero (S := S64x1024) hz2, View.ld_unit_zero (S := S1x64) hz2, View.ld_unit_zero (S := S1x32) hz2, View.ld_unit_zero (S := S1x1024) hz2]
  try rfl

theorem sC1 (c : Dev nD) (i : grid0.Coords) (arg2 : Memref sig .tc .vmem S2000x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x32 .bf16) (harg5 : arg5.IsWhole) (arg6 : Memref sig .tc .vmem S1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : cond0_1 i) (x0 : Vec F S2000x1024 .f32) (x1 : Vec F S64x1024 .bf16) (x2 : Vec F S1x64 .f32) (x3 : Vec F S1x32 .bf16) (x4 : Vec F S1x1 .f32) (xs0 : Vec F S1x1 .f32) (xs1 : Vec F S1x1 .f32) (xs2 : Vec F S1x1024 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = stepL x0 x1 x2 x3 x4 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  rw [View.canon_cons_unit_zero hz2]
  simp only [View.readCov_unit_zero (S := S1x1) _ hz2, View.readCov_unit_zero (S := S1x1024) _ hz2, View.readAt_eq_ld, harg2.read_unread, harg3.read_unread, harg4.read_unread, harg5.read_unread, harg6.read_unread, harg10.read_unread, harg11.read_unread, harg12.read_unread, View.ld_unit_zero (S := S1x1) hz2, View.ld_unit_zero (S := S2000x1024) hz2, View.ld_unit_zero (S := S64x1024) hz2, View.ld_unit_zero (S := S1x64) hz2, View.ld_unit_zero (S := S1x32) hz2, View.ld_unit_zero (S := S1x1024) hz2]
  try rfl

theorem sC2 (c : Dev nD) (i : grid0.Coords) (arg2 : Memref sig .tc .vmem S2000x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x32 .bf16) (harg5 : arg5.IsWhole) (arg6 : Memref sig .tc .vmem S1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : cond0_1 i) (x0 : Vec F S2000x1024 .f32) (x1 : Vec F S64x1024 .bf16) (x2 : Vec F S1x64 .f32) (x3 : Vec F S1x32 .bf16) (x4 : Vec F S1x1 .f32) (xs0 : Vec F S1x1 .f32) (xs1 : Vec F S1x1 .f32) (xs2 : Vec F S1x1024 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = stepA x0 x1 x2 x3 x4 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  rw [View.canon_cons_unit_zero hz2]
  simp only [View.readCov_unit_zero (S := S1x1) _ hz2, View.readCov_unit_zero (S := S1x1024) _ hz2, View.readAt_eq_ld, harg2.read_unread, harg3.read_unread, harg4.read_unread, harg5.read_unread, harg6.read_unread, harg10.read_unread, harg11.read_unread, harg12.read_unread, View.ld_unit_zero (S := S1x1) hz2, View.ld_unit_zero (S := S2000x1024) hz2, View.ld_unit_zero (S := S64x1024) hz2, View.ld_unit_zero (S := S1x64) hz2, View.ld_unit_zero (S := S1x32) hz2, View.ld_unit_zero (S := S1x1024) hz2]
  try rfl

theorem oC5 (c : Dev nD) (i : grid0.Coords) (arg2 : Memref sig .tc .vmem S2000x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x32 .bf16) (harg5 : arg5.IsWhole) (arg6 : Memref sig .tc .vmem S1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : cond0_1 i) (x0 : Vec F S2000x1024 .f32) (x1 : Vec F S64x1024 .bf16) (x2 : Vec F S1x64 .f32) (x3 : Vec F S1x32 .bf16) (x4 : Vec F S1x1 .f32) (xs0 : Vec F S1x1 .f32) (xs1 : Vec F S1x1 .f32) (xs2 : Vec F S1x1024 .f32) :
    out0_C_5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay4 (stepM x0 x1 x2 x3 x4 xs0) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  rw [View.canon_cons_unit_zero hz3]
  simp only [View.readCov_unit_zero (S := S1x1) _ hz2, View.readCov_unit_zero (S := S1x1024) _ hz2, View.readAt_eq_ld, harg2.read_unread, harg3.read_unread, harg4.read_unread, harg5.read_unread, harg6.read_unread, harg10.read_unread, harg11.read_unread, harg12.read_unread, View.ld_unit_zero (S := S1x1) hz2, View.ld_unit_zero (S := S2000x1024) hz2, View.ld_unit_zero (S := S64x1024) hz2, View.ld_unit_zero (S := S1x64) hz2, View.ld_unit_zero (S := S1x32) hz2, View.ld_unit_zero (S := S1x1024) hz2]
  try rfl

theorem oC6 (c : Dev nD) (i : grid0.Coords) (arg2 : Memref sig .tc .vmem S2000x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x32 .bf16) (harg5 : arg5.IsWhole) (arg6 : Memref sig .tc .vmem S1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : cond0_1 i) (x0 : Vec F S2000x1024 .f32) (x1 : Vec F S64x1024 .bf16) (x2 : Vec F S1x64 .f32) (x3 : Vec F S1x32 .bf16) (x4 : Vec F S1x1 .f32) (xs0 : Vec F S1x1 .f32) (xs1 : Vec F S1x1 .f32) (xs2 : Vec F S1x1024 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay5 (stepL x0 x1 x2 x3 x4 xs0 xs1) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  rw [View.canon_cons_unit_zero hz3]
  simp only [View.readCov_unit_zero (S := S1x1) _ hz2, View.readCov_unit_zero (S := S1x1024) _ hz2, View.readAt_eq_ld, harg2.read_unread, harg3.read_unread, harg4.read_unread, harg5.read_unread, harg6.read_unread, harg10.read_unread, harg11.read_unread, harg12.read_unread, View.ld_unit_zero (S := S1x1) hz2, View.ld_unit_zero (S := S2000x1024) hz2, View.ld_unit_zero (S := S64x1024) hz2, View.ld_unit_zero (S := S1x64) hz2, View.ld_unit_zero (S := S1x32) hz2, View.ld_unit_zero (S := S1x1024) hz2]
  try rfl

theorem oC7 (c : Dev nD) (i : grid0.Coords) (arg2 : Memref sig .tc .vmem S2000x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x32 .bf16) (harg5 : arg5.IsWhole) (arg6 : Memref sig .tc .vmem S1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : cond0_1 i) (x0 : Vec F S2000x1024 .f32) (x1 : Vec F S64x1024 .bf16) (x2 : Vec F S1x64 .f32) (x3 : Vec F S1x32 .bf16) (x4 : Vec F S1x1 .f32) (xs0 : Vec F S1x1 .f32) (xs1 : Vec F S1x1 .f32) (xs2 : Vec F S1x1024 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay6 (stepA x0 x1 x2 x3 x4 xs0 xs2) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  rw [View.canon_cons_unit_zero hz3]
  simp only [View.readCov_unit_zero (S := S1x1) _ hz2, View.readCov_unit_zero (S := S1x1024) _ hz2, View.readAt_eq_ld, harg2.read_unread, harg3.read_unread, harg4.read_unread, harg5.read_unread, harg6.read_unread, harg10.read_unread, harg11.read_unread, harg12.read_unread, View.ld_unit_zero (S := S1x1) hz2, View.ld_unit_zero (S := S2000x1024) hz2, View.ld_unit_zero (S := S64x1024) hz2, View.ld_unit_zero (S := S1x64) hz2, View.ld_unit_zero (S := S1x32) hz2, View.ld_unit_zero (S := S1x1024) hz2]
  try rfl

end Cert.KernelIdeal.Pieces
end
-- ==== Proof.Softmax.lean ====
import Idealize.ShloMosaic.PureOps.Ideal

/-!
Extended-real arithmetic of a streamed softmax average.

A running triple `(m, l, acc)` holds a scale `M` and the sums `E = ∑ exp a`, `X j = ∑ exp a · x j` over the
rows seen so far, both multiplied by `exp (-M)`.  Absorbing a further family of rows at any new real scale
`max M B` keeps that shape, two such triples merge into one, and the quotient `X j / E` does not depend on the
scale; the directly normalised form `∑ (exp (a - B) / ∑ exp (a - B)) · x` is the same quotient.
-/

noncomputable section

namespace Cert.Softmax

open Idealize.ShloMosaic

/-- The word `0xFF800000` denotes `-∞`. -/
theorem ofBits_neg_inf : Ideal.ofBits .f32 0xFF800000#32 = (⊥ : EReal) := by
  simp [Ideal.ofBits, Ideal.ieee]

/-- The word `0x3F800000` denotes `1`. -/
theorem ofBits_one : Ideal.ofBits .f32 0x3F800000#32 = (1 : EReal) := by
  simp [Ideal.ofBits, Ideal.ieee, -EReal.coe_mul]; norm_num

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
theorem coe_max (x y : ℝ) : ((max x y : ℝ) : EReal) = max (x : EReal) (y : EReal) :=
  EReal.coe_strictMono.monotone.map_max

/-- The maximum of finitely many reals, folded from `-∞` over a nonempty index type, is a real. -/
theorem fold_max_real {ι : Type*} [Fintype ι] [Nonempty ι] (g : ι → ℝ) :
    ∃ B : ℝ, (Finset.univ : Finset ι).fold max (⊥ : EReal) (fun k => (g k : EReal)) = (B : EReal) := by
  have h1 : (Finset.univ : Finset ι).fold max (⊥ : EReal) (fun k => (g k : EReal)) ≠ ⊤ :=
    ((Finset.fold_max_lt _).mpr ⟨bot_lt_top, fun x _ => EReal.coe_lt_top _⟩).ne
  have h2 : (Finset.univ : Finset ι).fold max (⊥ : EReal) (fun k => (g k : EReal)) ≠ ⊥ := by
    obtain ⟨k0⟩ := ‹Nonempty ι›
    have h : (g k0 : EReal) ≤ (Finset.univ : Finset ι).fold max (⊥ : EReal) (fun k => (g k : EReal)) :=
      (Finset.le_fold_max _).mpr (Or.inr ⟨k0, Finset.mem_univ _, le_rfl⟩)
    intro hb
    rw [hb] at h
    exact absurd h (by simp)
  exact ⟨_, (EReal.coe_toReal h1 h2).symm⟩

/-- The triple `(m, l, acc)` is the sums `E`, `X` at some real scale `M`: `m = M`, `l = exp (-M) · E`,
    `acc j = exp (-M) · X j`. -/
def Scaled (m l : EReal) (acc : Fin 1024 → EReal) (E : ℝ) (X : Fin 1024 → ℝ) : Prop :=
  ∃ M : ℝ, m = (M : EReal) ∧ l = ((Real.exp (-M) * E : ℝ) : EReal)
    ∧ ∀ j, acc j = ((Real.exp (-M) * X j : ℝ) : EReal)

theorem exp_sub_mul (M M' : ℝ) : Real.exp (M - M') * Real.exp (-M) = Real.exp (-M') := by
  rw [← Real.exp_add]; congr 1; ring

theorem exp_sub_eq (a M' : ℝ) : Real.exp (a - M') = Real.exp (-M') * Real.exp a := by
  rw [← Real.exp_add]; congr 1; ring

/-- Absorbing the rows `r` (logits `a r`, features `x r`) at the new scale `max m B`. -/
theorem Scaled.step {m l : EReal} {acc : Fin 1024 → EReal} {E : ℝ} {X : Fin 1024 → ℝ} (h : Scaled m l acc E X)
    {ι : Type*} [Fintype ι] (a : ι → ℝ) (x : ι → Fin 1024 → ℝ) (B : ℝ) :
    Scaled (max m (B : EReal))
      (Ideal.exp (m - max m (B : EReal)) * l + ∑ r, Ideal.exp ((a r : EReal) - max m (B : EReal)))
      (fun j => Ideal.exp (m - max m (B : EReal)) * acc j
        + ∑ r, Ideal.exp ((a r : EReal) - max m (B : EReal)) * (x r j : EReal))
      (E + ∑ r, Real.exp (a r)) (fun j => X j + ∑ r, Real.exp (a r) * x r j) := by
  obtain ⟨M, rfl, rfl, hacc⟩ := h
  refine ⟨max M B, (coe_max M B).symm, ?_, fun j => ?_⟩
  · rw [← coe_max, ← EReal.coe_sub, Ideal.exp_coe, ← EReal.coe_mul]
    simp_rw [← EReal.coe_sub, Ideal.exp_coe]
    rw [← coe_sum, ← EReal.coe_add]
    congr 1
    simp_rw [exp_sub_eq (a _) (max M B)]
    rw [← Finset.mul_sum, mul_add, ← mul_assoc, exp_sub_mul]
  · show Ideal.exp ((M : EReal) - max (M : EReal) (B : EReal)) * acc j
        + ∑ r, Ideal.exp ((a r : EReal) - max (M : EReal) (B : EReal)) * (x r j : EReal)
      = ((Real.exp (-(max M B)) * (X j + ∑ r, Real.exp (a r) * x r j) : ℝ) : EReal)
    rw [hacc j, ← coe_max, ← EReal.coe_sub, Ideal.exp_coe, ← EReal.coe_mul]
    simp_rw [← EReal.coe_sub, Ideal.exp_coe, ← EReal.coe_mul]
    rw [← coe_sum, ← EReal.coe_add]
    congr 1
    simp_rw [exp_sub_eq (a _) (max M B), mul_assoc]
    rw [← Finset.mul_sum, mul_add, ← mul_assoc, exp_sub_mul]

/-- The first rows, absorbed into the empty triple `(-∞, 0, 0)`. -/
theorem Scaled.init {ι : Type*} [Fintype ι] (a : ι → ℝ) (x : ι → Fin 1024 → ℝ) (B : ℝ) :
    Scaled (max (⊥ : EReal) (B : EReal))
      (Ideal.exp ((⊥ : EReal) - max (⊥ : EReal) (B : EReal)) * 0
        + ∑ r, Ideal.exp ((a r : EReal) - max (⊥ : EReal) (B : EReal)))
      (fun j => Ideal.exp ((⊥ : EReal) - max (⊥ : EReal) (B : EReal)) * 0
        + ∑ r, Ideal.exp ((a r : EReal) - max (⊥ : EReal) (B : EReal)) * (x r j : EReal))
      (∑ r, Real.exp (a r)) (fun j => ∑ r, Real.exp (a r) * x r j) := by
  have hm : max (⊥ : EReal) (B : EReal) = (B : EReal) := max_eq_right bot_le
  refine ⟨B, hm, ?_, fun j => ?_⟩
  · rw [hm, mul_zero, zero_add]
    simp_rw [← EReal.coe_sub, Ideal.exp_coe]
    rw [← coe_sum]
    congr 1
    simp_rw [exp_sub_eq (a _) B]
    rw [← Finset.mul_sum]
  · show Ideal.exp ((⊥ : EReal) - max (⊥ : EReal) (B : EReal)) * 0
        + ∑ r, Ideal.exp ((a r : EReal) - max (⊥ : EReal) (B : EReal)) * (x r j : EReal)
      = ((Real.exp (-B) * ∑ r, Real.exp (a r) * x r j : ℝ) : EReal)
    rw [hm, mul_zero, zero_add]
    simp_rw [← EReal.coe_sub, Ideal.exp_coe, ← EReal.coe_mul]
    rw [← coe_sum]
    congr 1
    simp_rw [exp_sub_eq (a _) B, mul_assoc]
    rw [← Finset.mul_sum]

/-- Two triples merged at the scale `max m0 m1`, and the quotient taken: the scale cancels. -/
theorem merge_div {m0 l0 : EReal} {acc0 : Fin 1024 → EReal} {E0 : ℝ} {X0 : Fin 1024 → ℝ}
    {m1 l1 : EReal} {acc1 : Fin 1024 → EReal} {E1 : ℝ} {X1 : Fin 1024 → ℝ}
    (h0 : Scaled m0 l0 acc0 E0 X0) (h1 : Scaled m1 l1 acc1 E1 X1) (hE : E0 + E1 ≠ 0) (j : Fin 1024) :
    Ideal.div (Ideal.exp (m0 - max m0 m1) * acc0 j + Ideal.exp (m1 - max m0 m1) * acc1 j)
        (Ideal.exp (m0 - max m0 m1) * l0 + Ideal.exp (m1 - max m0 m1) * l1)
      = (((X0 j + X1 j) / (E0 + E1) : ℝ) : EReal) := by
  obtain ⟨M0, rfl, rfl, ha0⟩ := h0
  obtain ⟨M1, rfl, rfl, ha1⟩ := h1
  rw [ha0 j, ha1 j, ← coe_max, ← EReal.coe_sub, ← EReal.coe_sub, Ideal.exp_coe, Ideal.exp_coe,
    ← EReal.coe_mul, ← EReal.coe_mul, ← EReal.coe_mul, ← EReal.coe_mul, ← EReal.coe_add, ← EReal.coe_add]
  have hd : Real.exp (M0 - max M0 M1) * (Real.exp (-M0) * E0) + Real.exp (M1 - max M0 M1) * (Real.exp (-M1) * E1)
      = Real.exp (-(max M0 M1)) * (E0 + E1) := by
    rw [← mul_assoc, ← mul_assoc, exp_sub_mul, exp_sub_mul, mul_add]
  have hn : Real.exp (M0 - max M0 M1) * (Real.exp (-M0) * X0 j) + Real.exp (M1 - max M0 M1) * (Real.exp (-M1) * X1 j)
      = Real.exp (-(max M0 M1)) * (X0 j + X1 j) := by
    rw [← mul_assoc, ← mul_assoc, exp_sub_mul, exp_sub_mul, mul_add]
  rw [hd, hn]
  have hne : Real.exp (-(max M0 M1)) * (E0 + E1) ≠ 0 := mul_ne_zero (Real.exp_ne_zero _) hE
  rw [Ideal.div_coe hne, ← EReal.coe_mul]
  congr 1
  have := Real.exp_ne_zero (-(max M0 M1))
  field_simp

/-- The directly normalised average: weights `exp (a - B) / (0 + ∑ exp (a - B))` at any real `B`. -/
theorem normalised_sum {ι : Type*} [Fintype ι] [Nonempty ι] (a : ι → ℝ) (x : ι → ℝ) (B : ℝ) :
    ∑ n, Ideal.div (Ideal.exp ((a n : EReal) - (B : EReal))) (0 + ∑ n', Ideal.exp ((a n' : EReal) - (B : EReal)))
        * (x n : EReal)
      = (((∑ n, Real.exp (a n) * x n) / (∑ n, Real.exp (a n)) : ℝ) : EReal) := by
  have hS : 0 < ∑ n, Real.exp (a n) :=
    Finset.sum_pos (fun i _ => Real.exp_pos _) Finset.univ_nonempty
  have hden : (0 : EReal) + ∑ n', Ideal.exp ((a n' : EReal) - (B : EReal))
      = ((Real.exp (-B) * ∑ n, Real.exp (a n) : ℝ) : EReal) := by
    rw [zero_add]
    simp_rw [← EReal.coe_sub, Ideal.exp_coe]
    rw [← coe_sum]
    congr 1
    simp_rw [exp_sub_eq (a _) B]
    rw [← Finset.mul_sum]
  have hne : Real.exp (-B) * ∑ n, Real.exp (a n) ≠ 0 := mul_ne_zero (Real.exp_ne_zero _) hS.ne'
  rw [hden]
  simp_rw [Ideal.div_coe hne, ← EReal.coe_sub, Ideal.exp_coe, ← EReal.coe_mul]
  rw [← coe_sum]
  congr 1
  rw [Finset.sum_div]
  refine Finset.sum_congr rfl fun n _ => ?_
  rw [exp_sub_eq]
  have := Real.exp_ne_zero (-B)
  field_simp

/-- A sum over `200000` rows, cut into two runs of `50` blocks of `2000` rows. -/
theorem sum_blocks (g : ℕ → ℝ) :
    (∑ t ∈ Finset.Icc 0 49, ∑ r : Fin 2000, g (2000 * t + r.val))
      + (∑ t ∈ Finset.Icc 50 99, ∑ r : Fin 2000, g (2000 * t + r.val))
      = ∑ n : Fin 200000, g n.val := by
  have hU : Finset.Icc 0 49 ∪ Finset.Icc 50 99 = Finset.range 100 := by
    ext n; simp only [Finset.mem_union, Finset.mem_Icc, Finset.mem_range]; omega
  have hD : Disjoint (Finset.Icc 0 49) (Finset.Icc 50 99) := by
    rw [Finset.disjoint_left]; intro n h1 h2
    simp only [Finset.mem_Icc] at h1 h2; omega
  rw [← Finset.sum_union hD, hU, ← Fin.sum_univ_eq_sum_range (fun t => ∑ r : Fin 2000, g (2000 * t + r.val)) 100]
  rw [← Fintype.sum_prod_type']
  rw [show (∑ n : Fin 200000, g n.val) = ∑ n : Fin (100 * 2000), g n.val from rfl]
  rw [← Equiv.sum_comp finProdFinEquiv]
  refine Finset.sum_congr rfl fun p _ => ?_
  rw [finProdFinEquiv_apply_val]
  congr 1
  ring

end Cert.Softmax

end
-- ==== Proof.StepValue.lean ====
import proofs.«120143_j45724221833328_2_alg».proof.Proof.Pieces
import proofs.«120143_j45724221833328_2_alg».proof.Proof.Softmax
import Idealize.ShloMosaic.Lib.ValueIdx
import Idealize.ShloMosaic.Lib.ValueLayout
import Idealize.ShloMosaic.PureOps.Ideal.Laws

/-!
One grid point's arithmetic on the extended reals, index by index.

A point sees a block of 2000 rows.  With `a r` the logit of row `r` and `M' = max m (max_r a r)` the new
running maximum, the running sum becomes `exp (m - M') · l + ∑_r exp (a r - M')` and column `j` of the running
weighted row sum becomes `exp (m - M') · acc j + ∑_r exp (a r - M') · x r j`.
-/

noncomputable section
open Idealize.ShloMosaic Idealize.ShloMosaic.TcCoe Idealize.SL.Sem

namespace Cert.KernelIdeal.StepValue
open Cert.KernelIdeal Cert.KernelIdeal.Gen Cert.KernelIdeal.Pieces Idealize.ShloMosaic.ValueIdx

/-- A `[1, 2000] × [2000, 1024]` matrix product into a zero accumulator, read at `(a, b)`: the sum over the
    contracted index of the products. -/
theorem mm_rows (lhs : FVec Ideal S1x2000 .bf16) (rhs : FVec Ideal S2000x1024 .bf16) (a : Fin 1) (b : Fin 1024) :
    matmul dot_S1x2000_S2000x1024_S1x1024_1_0_0_1_n_n none lhs rhs (constant (F := Ideal) S1x1024 .f32 0x00000000#32) (ix2 a b)
      = ∑ k : Fin 2000, lhs (ix2 a k) * rhs (ix2 k b) := by
  simp only [matmul]
  rw [Ideal.matmul_constant_zero_apply, ← Equiv.sum_comp (ValueIdx.contrEquiv1 dot_S1x2000_S2000x1024_S1x1024_1_0_0_1_n_n 2000 rfl rfl).symm]
  refine Finset.sum_congr rfl fun k _ => ?_
  have hk := ValueIdx.contrEquiv1_symm_val dot_S1x2000_S2000x1024_S1x1024_1_0_0_1_n_n 2000 rfl rfl k
  have l0 : ∀ q, (dot_S1x2000_S2000x1024_S1x1024_1_0_0_1_n_n.lhsIdx (ix2 a b) q 0).val = a.val := fun q => by
    unfold DotDims.lhsIdx
    rw [dif_neg (show ¬(0 : Fin S1x2000.rank) ∈ dot_S1x2000_S2000x1024_S1x1024_1_0_0_1_n_n.lhsBatch by decide), dif_pos (show (0 : Fin S1x2000.rank) ∈ dot_S1x2000_S2000x1024_S1x1024_1_0_0_1_n_n.lhsNonContracting by decide)]
    rfl
  have r1 : ∀ q, (dot_S1x2000_S2000x1024_S1x1024_1_0_0_1_n_n.rhsIdx (ix2 a b) q 1).val = b.val := fun q => by
    unfold DotDims.rhsIdx
    rw [dif_neg (show ¬(1 : Fin S2000x1024.rank) ∈ dot_S1x2000_S2000x1024_S1x1024_1_0_0_1_n_n.rhsBatch by decide), dif_pos (show (1 : Fin S2000x1024.rank) ∈ dot_S1x2000_S2000x1024_S1x1024_1_0_0_1_n_n.rhsNonContracting by decide)]
    rfl
  have el : dot_S1x2000_S2000x1024_S1x1024_1_0_0_1_n_n.lhsIdx (ix2 a b) ((ValueIdx.contrEquiv1 dot_S1x2000_S2000x1024_S1x1024_1_0_0_1_n_n 2000 rfl rfl).symm k) = ix2 a k := funext fun c => Fin.ext (by
    match c with
    | ⟨0, _⟩ => exact l0 _
    | ⟨1, _⟩ => exact (dot_S1x2000_S2000x1024_S1x1024_1_0_0_1_n_n.lhsIdx_val_of_single rfl _ _).trans hk)
  have er : dot_S1x2000_S2000x1024_S1x1024_1_0_0_1_n_n.rhsIdx (ix2 a b) ((ValueIdx.contrEquiv1 dot_S1x2000_S2000x1024_S1x1024_1_0_0_1_n_n 2000 rfl rfl).symm k) = ix2 k b := funext fun c => Fin.ext (by
    match c with
    | ⟨0, _⟩ => exact (dot_S1x2000_S2000x1024_S1x1024_1_0_0_1_n_n.rhsIdx_val_of_single rfl _ _).trans hk
    | ⟨1, _⟩ => exact r1 _)
  rw [el, er]

/-- A `[2000, 1024] × [1024, 64]` matrix product into a zero accumulator, read at `(a, b)`: the sum over the
    contracted index of the products. -/
theorem mm_gate (lhs : FVec Ideal S2000x1024 .bf16) (rhs : FVec Ideal S1024x64 .bf16) (a : Fin 2000) (b : Fin 64) :
    matmul dot_S2000x1024_S1024x64_S2000x64_1_0_0_1_n_n none lhs rhs (constant (F := Ideal) S2000x64 .f32 0x00000000#32) (ix2 a b)
      = ∑ k : Fin 1024, lhs (ix2 a k) * rhs (ix2 k b) := by
  simp only [matmul]
  rw [Ideal.matmul_constant_zero_apply, ← Equiv.sum_comp (ValueIdx.contrEquiv1 dot_S2000x1024_S1024x64_S2000x64_1_0_0_1_n_n 1024 rfl rfl).symm]
  refine Finset.sum_congr rfl fun k _ => ?_
  have hk := ValueIdx.contrEquiv1_symm_val dot_S2000x1024_S1024x64_S2000x64_1_0_0_1_n_n 1024 rfl rfl k
  have l0 : ∀ q, (dot_S2000x1024_S1024x64_S2000x64_1_0_0_1_n_n.lhsIdx (ix2 a b) q 0).val = a.val := fun q => by
    unfold DotDims.lhsIdx
    rw [dif_neg (show ¬(0 : Fin S2000x1024.rank) ∈ dot_S2000x1024_S1024x64_S2000x64_1_0_0_1_n_n.lhsBatch by decide), dif_pos (show (0 : Fin S2000x1024.rank) ∈ dot_S2000x1024_S1024x64_S2000x64_1_0_0_1_n_n.lhsNonContracting by decide)]
    rfl
  have r1 : ∀ q, (dot_S2000x1024_S1024x64_S2000x64_1_0_0_1_n_n.rhsIdx (ix2 a b) q 1).val = b.val := fun q => by
    unfold DotDims.rhsIdx
    rw [dif_neg (show ¬(1 : Fin S1024x64.rank) ∈ dot_S2000x1024_S1024x64_S2000x64_1_0_0_1_n_n.rhsBatch by decide), dif_pos (show (1 : Fin S1024x64.rank) ∈ dot_S2000x1024_S1024x64_S2000x64_1_0_0_1_n_n.rhsNonContracting by decide)]
    rfl
  have el : dot_S2000x1024_S1024x64_S2000x64_1_0_0_1_n_n.lhsIdx (ix2 a b) ((ValueIdx.contrEquiv1 dot_S2000x1024_S1024x64_S2000x64_1_0_0_1_n_n 1024 rfl rfl).symm k) = ix2 a k := funext fun c => Fin.ext (by
    match c with
    | ⟨0, _⟩ => exact l0 _
    | ⟨1, _⟩ => exact (dot_S2000x1024_S1024x64_S2000x64_1_0_0_1_n_n.lhsIdx_val_of_single rfl _ _).trans hk)
  have er : dot_S2000x1024_S1024x64_S2000x64_1_0_0_1_n_n.rhsIdx (ix2 a b) ((ValueIdx.contrEquiv1 dot_S2000x1024_S1024x64_S2000x64_1_0_0_1_n_n 1024 rfl rfl).symm k) = ix2 k b := funext fun c => Fin.ext (by
    match c with
    | ⟨0, _⟩ => exact (dot_S2000x1024_S1024x64_S2000x64_1_0_0_1_n_n.rhsIdx_val_of_single rfl _ _).trans hk
    | ⟨1, _⟩ => exact r1 _)
  rw [el, er]

/-- A `[2000, 32] × [32, 1]` matrix product into a zero accumulator, read at `(a, b)`: the sum over the
    contracted index of the products. -/
theorem mm_logit (lhs : FVec Ideal S2000x32 .bf16) (rhs : FVec Ideal S32x1 .bf16) (a : Fin 2000) (b : Fin 1) :
    matmul dot_S2000x32_S32x1_S2000x1_1_0_0_1_n_n none lhs rhs (constant (F := Ideal) S2000x1 .f32 0x00000000#32) (ix2 a b)
      = ∑ k : Fin 32, lhs (ix2 a k) * rhs (ix2 k b) := by
  simp only [matmul]
  rw [Ideal.matmul_constant_zero_apply, ← Equiv.sum_comp (ValueIdx.contrEquiv1 dot_S2000x32_S32x1_S2000x1_1_0_0_1_n_n 32 rfl rfl).symm]
  refine Finset.sum_congr rfl fun k _ => ?_
  have hk := ValueIdx.contrEquiv1_symm_val dot_S2000x32_S32x1_S2000x1_1_0_0_1_n_n 32 rfl rfl k
  have l0 : ∀ q, (dot_S2000x32_S32x1_S2000x1_1_0_0_1_n_n.lhsIdx (ix2 a b) q 0).val = a.val := fun q => by
    unfold DotDims.lhsIdx
    rw [dif_neg (show ¬(0 : Fin S2000x32.rank) ∈ dot_S2000x32_S32x1_S2000x1_1_0_0_1_n_n.lhsBatch by decide), dif_pos (show (0 : Fin S2000x32.rank) ∈ dot_S2000x32_S32x1_S2000x1_1_0_0_1_n_n.lhsNonContracting by decide)]
    rfl
  have r1 : ∀ q, (dot_S2000x32_S32x1_S2000x1_1_0_0_1_n_n.rhsIdx (ix2 a b) q 1).val = b.val := fun q => by
    unfold DotDims.rhsIdx
    rw [dif_neg (show ¬(1 : Fin S32x1.rank) ∈ dot_S2000x32_S32x1_S2000x1_1_0_0_1_n_n.rhsBatch by decide), dif_pos (show (1 : Fin S32x1.rank) ∈ dot_S2000x32_S32x1_S2000x1_1_0_0_1_n_n.rhsNonContracting by decide)]
    rfl
  have el : dot_S2000x32_S32x1_S2000x1_1_0_0_1_n_n.lhsIdx (ix2 a b) ((ValueIdx.contrEquiv1 dot_S2000x32_S32x1_S2000x1_1_0_0_1_n_n 32 rfl rfl).symm k) = ix2 a k := funext fun c => Fin.ext (by
    match c with
    | ⟨0, _⟩ => exact l0 _
    | ⟨1, _⟩ => exact (dot_S2000x32_S32x1_S2000x1_1_0_0_1_n_n.lhsIdx_val_of_single rfl _ _).trans hk)
  have er : dot_S2000x32_S32x1_S2000x1_1_0_0_1_n_n.rhsIdx (ix2 a b) ((ValueIdx.contrEquiv1 dot_S2000x32_S32x1_S2000x1_1_0_0_1_n_n 32 rfl rfl).symm k) = ix2 k b := funext fun c => Fin.ext (by
    match c with
    | ⟨0, _⟩ => exact (dot_S2000x32_S32x1_S2000x1_1_0_0_1_n_n.rhsIdx_val_of_single rfl _ _).trans hk
    | ⟨1, _⟩ => exact r1 _)
  rw [el, er]

/-- The maximum over the rows of a one-column block, from the `-∞` word: the fold of `max` over the rows. -/
theorem colMax_apply (src : FVec Ideal S2000x1 .f32) (hφ : FKind.Formats .f32)
    (hacc : (0xFF800000#32 : BitVec 32) = FKind.maximumf.neutral .f32 hφ) :
    multiReduction .maximumf [0] S1 src 0xFF800000#32 reduces_S2000x1_S1 hφ hacc (ix1 (0 : Fin 1))
      = (Finset.univ : Finset (Fin 2000)).fold max (Ideal.ofBits .f32 0xFF800000#32) (fun r => src (ix2 r (0 : Fin 1))) := by
  refine (Ideal.multiReduction_maximumf_single src 0xFF800000#32 reduces_S2000x1_S1 hφ hacc (ix1 (0 : Fin 1))).trans ?_
  refine congrArg (fun f => (Finset.univ : Finset (Fin 2000)).fold max (Ideal.ofBits .f32 0xFF800000#32) f) ?_
  funext r
  exact congrArg src (funext fun a => Fin.ext (by match a with | ⟨0, _⟩ => rfl | ⟨1, _⟩ => rfl))

/-- The sum over the rows of a one-column block. -/
theorem colSum_apply (src : FVec Ideal S2000x1 .f32) (hφ : FKind.Formats .f32)
    (hacc : (0x00000000#32 : BitVec 32) = FKind.add.neutral .f32 hφ) :
    multiReduction .add [0] S1 src 0x00000000#32 reduces_S2000x1_S1 hφ hacc (ix1 (0 : Fin 1))
      = ∑ r : Fin 2000, src (ix2 r (0 : Fin 1)) := by
  refine (Ideal.multiReduction_add_single src 0x00000000#32 reduces_S2000x1_S1 hφ hacc (ix1 (0 : Fin 1))).trans ?_
  refine Finset.sum_congr rfl fun r _ => ?_
  exact congrArg src (funext fun a => Fin.ext (by match a with | ⟨0, _⟩ => rfl | ⟨1, _⟩ => rfl))

/-- A `[1, 1]` value spread down a column reads its one entry. -/
theorem spreadCol_apply (v : FVec Ideal S1x1 .f32) (r : Fin 2000) :
    broadcastTo S2000x1 v broadcasts_S1x1_S2000x1 (ix2 r (0 : Fin 1)) = v (ix2 (0 : Fin 1) (0 : Fin 1)) :=
  broadcastTo_apply v broadcasts_S1x1_S2000x1 _ _ fun a => by match a with | ⟨0, _⟩ => rfl | ⟨1, _⟩ => rfl

/-- A `[1, 1]` value spread along a row reads its one entry. -/
theorem spreadRow_apply (v : FVec Ideal S1x1 .f32) (j : Fin 1024) :
    broadcastTo S1x1024 v broadcasts_S1x1_S1x1024 (ix2 (0 : Fin 1) j) = v (ix2 (0 : Fin 1) (0 : Fin 1)) :=
  broadcastTo_apply v broadcasts_S1x1_S1x1024 _ _ fun a => by match a with | ⟨0, _⟩ => rfl | ⟨1, _⟩ => rfl

section
variable (x0 : Vec Ideal S2000x1024 .f32) (x1 : Vec Ideal S64x1024 .bf16) (x2 : Vec Ideal S1x64 .f32)
  (x3 : Vec Ideal S1x32 .bf16) (x4 : Vec Ideal S1x1 .f32)

/-- The block's logits, one per row. -/
def blockLogit (r : Fin 2000) : EReal := k0_pay11 (F := Ideal) x0 x1 x2 x3 x4 (ix2 r (0 : Fin 1))

/-- The block's largest logit, folded from `-∞`. -/
def blockMax : EReal :=
  (Finset.univ : Finset (Fin 2000)).fold max (Ideal.ofBits .f32 0xFF800000#32) (blockLogit x0 x1 x2 x3 x4)

/-- The new running maximum. -/
theorem newMax_apply (s0 : Vec Ideal S1x1 .f32) :
    k0_pay12 (F := Ideal) x0 x1 x2 x3 x4 s0 (ix2 (0 : Fin 1) (0 : Fin 1))
      = max (s0 (ix2 (0 : Fin 1) (0 : Fin 1))) (blockMax x0 x1 x2 x3 x4) := by
  unfold k0_pay12
  show max (s0 (ix2 (0 : Fin 1) (0 : Fin 1))) (shapeCast S1x1 _ shapeCasts_S1_S1x1 (ix2 (0 : Fin 1) (0 : Fin 1))) = _
  refine congrArg (max (s0 (ix2 (0 : Fin 1) (0 : Fin 1)))) ?_
  refine (shapeCast_a_1a_apply _ shapeCasts_S1_S1x1 (0 : Fin 1) (0 : Fin 1)).trans ?_
  exact colMax_apply _ _ _

theorem stepM_apply (s0 : Vec Ideal S1x1 .f32) :
    stepM (F := Ideal) x0 x1 x2 x3 x4 s0 (ix2 (0 : Fin 1) (0 : Fin 1))
      = max (s0 (ix2 (0 : Fin 1) (0 : Fin 1))) (blockMax x0 x1 x2 x3 x4) := by
  unfold stepM k0_pay3
  rw [shapeCast_self]
  exact newMax_apply x0 x1 x2 x3 x4 s0

/-- The rescaling factor of the old sums. -/
theorem corr_apply (s0 : Vec Ideal S1x1 .f32) :
    k0_pay13 (F := Ideal) x0 x1 x2 x3 x4 s0 s0 (ix2 (0 : Fin 1) (0 : Fin 1))
      = Ideal.exp (s0 (ix2 (0 : Fin 1) (0 : Fin 1)) - max (s0 (ix2 (0 : Fin 1) (0 : Fin 1))) (blockMax x0 x1 x2 x3 x4)) := by
  unfold k0_pay13
  show Ideal.exp (s0 (ix2 (0 : Fin 1) (0 : Fin 1)) - k0_pay12 (F := Ideal) x0 x1 x2 x3 x4 s0 (ix2 (0 : Fin 1) (0 : Fin 1))) = _
  rw [newMax_apply]

/-- A row's exponential at the new maximum. -/
theorem weight_apply (s0 : Vec Ideal S1x1 .f32) (r : Fin 2000) :
    k0_pay14 (F := Ideal) x0 x1 x2 x3 x4 s0 (ix2 r (0 : Fin 1))
      = Ideal.exp (blockLogit x0 x1 x2 x3 x4 r - max (s0 (ix2 (0 : Fin 1) (0 : Fin 1))) (blockMax x0 x1 x2 x3 x4)) := by
  unfold k0_pay14
  show Ideal.exp (k0_pay11 (F := Ideal) x0 x1 x2 x3 x4 (ix2 r (0 : Fin 1))
    - broadcastTo S2000x1 (k0_pay12 (F := Ideal) x0 x1 x2 x3 x4 s0) broadcasts_S1x1_S2000x1 (ix2 r (0 : Fin 1))) = _
  rw [spreadCol_apply, newMax_apply]
  rfl

/-- The new running sum of exponentials. -/
theorem stepL_apply (s0 s1 : Vec Ideal S1x1 .f32) :
    stepL (F := Ideal) x0 x1 x2 x3 x4 s0 s1 (ix2 (0 : Fin 1) (0 : Fin 1))
      = Ideal.exp (s0 (ix2 (0 : Fin 1) (0 : Fin 1)) - max (s0 (ix2 (0 : Fin 1) (0 : Fin 1))) (blockMax x0 x1 x2 x3 x4))
          * s1 (ix2 (0 : Fin 1) (0 : Fin 1))
        + ∑ r : Fin 2000, Ideal.exp (blockLogit x0 x1 x2 x3 x4 r
            - max (s0 (ix2 (0 : Fin 1) (0 : Fin 1))) (blockMax x0 x1 x2 x3 x4)) := by
  unfold stepL k0_pay1
  rw [shapeCast_self]
  have h1 := corr_apply x0 x1 x2 x3 x4 s0
  have h2 : shapeCast S1x1 (multiReduction .add [0] S1 (k0_pay14 (F := Ideal) x0 x1 x2 x3 x4 s0) 0x00000000#32
        reduces_S2000x1_S1 (.inl rfl) rfl) shapeCasts_S1_S1x1 (ix2 (0 : Fin 1) (0 : Fin 1))
      = ∑ r : Fin 2000, Ideal.exp (blockLogit x0 x1 x2 x3 x4 r
          - max (s0 (ix2 (0 : Fin 1) (0 : Fin 1))) (blockMax x0 x1 x2 x3 x4)) :=
    (shapeCast_a_1a_apply _ shapeCasts_S1_S1x1 (0 : Fin 1) (0 : Fin 1)).trans
      ((colSum_apply _ _ _).trans (Finset.sum_congr rfl fun r _ => weight_apply x0 x1 x2 x3 x4 s0 r))
  exact congrArg₂ (fun p q : EReal => p * s1 (ix2 (0 : Fin 1) (0 : Fin 1)) + q) h1 h2

/-- The new running weighted row sum, column `j`. -/
theorem stepA_apply (s0 : Vec Ideal S1x1 .f32) (s2 : Vec Ideal S1x1024 .f32) (j : Fin 1024) :
    stepA (F := Ideal) x0 x1 x2 x3 x4 s0 s2 (ix2 (0 : Fin 1) j)
      = Ideal.exp (s0 (ix2 (0 : Fin 1) (0 : Fin 1)) - max (s0 (ix2 (0 : Fin 1) (0 : Fin 1))) (blockMax x0 x1 x2 x3 x4))
          * s2 (ix2 (0 : Fin 1) j)
        + ∑ r : Fin 2000, Ideal.exp (blockLogit x0 x1 x2 x3 x4 r
            - max (s0 (ix2 (0 : Fin 1) (0 : Fin 1))) (blockMax x0 x1 x2 x3 x4)) * x0 (ix2 r j) := by
  unfold stepA k0_pay2
  rw [shapeCast_self]
  show broadcastTo S1x1024 (k0_pay13 (F := Ideal) x0 x1 x2 x3 x4 s0 s0) broadcasts_S1x1_S1x1024 (ix2 (0 : Fin 1) j)
      * s2 (ix2 (0 : Fin 1) j)
    + matmul dot_S1x2000_S2000x1024_S1x1024_1_0_0_1_n_n none _ _ (constant (F := Ideal) S1x1024 .f32 0x00000000#32) (ix2 (0 : Fin 1) j) = _
  rw [spreadRow_apply, corr_apply, mm_rows]
  refine congrArg (_ + ·) (Finset.sum_congr rfl fun r _ => ?_)
  rw [transpose_ix2_apply]
  show k0_pay14 (F := Ideal) x0 x1 x2 x3 x4 s0 (ix2 r (0 : Fin 1)) * x0 (ix2 r j) = _
  rw [weight_apply]

end

end Cert.KernelIdeal.StepValue

end
-- ==== Proof.Fold.lean ====
import proofs.«120143_j45724221833328_2_alg».proof.Proof.StepValue

/-!
The running triple after every grid point.

The grid is two runs of fifty points; a run starts from the empty triple `(-∞, 0, 0)` and each point absorbs its
block of 2000 rows.  After point `n` the triple is, at some real scale, the sums `∑ exp a` and `∑ exp a · x` over
the blocks `n - n % 50, …, n` of the run so far — by induction on the point.
-/

noncomputable section
open Idealize.ShloMosaic Idealize.ShloMosaic.TcCoe Idealize.SL.Sem

namespace Cert.KernelIdeal.Fold
open Cert.KernelIdeal Cert.KernelIdeal.Gen Cert.KernelIdeal.Pieces Cert.KernelIdeal.StepValue
open Idealize.ShloMosaic.ValueIdx Cert.Softmax

section AnyValues
variable {F : FTy → Type} [FloatOps F]
variable (m : (ℓ : Loc nD τ sig) → Buf (Elt F) ℓ) (c : Dev nD)

/-- At a run's first point the triple is one step from the stored `(-∞, 0, 0)`. -/
theorem trip_first (t : Fin cfg0.N) (h0 : t.val % 50 = 0) (h1 : ¬t.val % 50 = 49) :
    (outsAt0 m c t.val t.isLt).2.2.2.1 = stepM (iblk m c 0 t) (iblk m c 1 t) (iblk m c 2 t) (iblk m c 3 t) (iblk m c 4 t) k0_pay7
    ∧ (outsAt0 m c t.val t.isLt).2.2.2.2.1 = stepL (iblk m c 0 t) (iblk m c 1 t) (iblk m c 2 t) (iblk m c 3 t) (iblk m c 4 t) k0_pay7 k0_pay8
    ∧ (outsAt0 m c t.val t.isLt).2.2.2.2.2 = stepA (iblk m c 0 t) (iblk m c 1 t) (iblk m c 2 t) (iblk m c 3 t) (iblk m c 4 t) k0_pay7 k0_pay9 := by
  rw [outsAt0_A m c t h0 h1]
  dsimp only
  refine ⟨?_, ?_, ?_⟩
  · exact sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)
  · exact sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)
  · exact sA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)

/-- At every other point it is one step from the triple the point before left. -/
theorem trip_next (t : Fin cfg0.N) (h0 : ¬t.val % 50 = 0) :
    (outsAt0 m c t.val t.isLt).2.2.2.1 = stepM (iblk m c 0 t) (iblk m c 1 t) (iblk m c 2 t) (iblk m c 3 t) (iblk m c 4 t) (outsAt0 m c (t.val - 1) (Nat.lt_of_le_of_lt (Nat.sub_le _ _) t.isLt)).2.2.2.1
    ∧ (outsAt0 m c t.val t.isLt).2.2.2.2.1 = stepL (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ (outsAt0 m c t.val t.isLt).2.2.2.2.2 = stepA (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  by_cases h1 : t.val % 50 = 49
  · rw [outsAt0_C m c t h0 h1]
    dsimp only
    refine ⟨?_, ?_, ?_⟩
    · exact sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · exact sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · exact sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    refine ⟨?_, ?_, ?_⟩
    · exact sB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · exact sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · exact sB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- At a run's last point the three output blocks are the new triple, re-laid with a leading unit axis. -/
theorem outs_last (t : Fin cfg0.N) (h0 : ¬t.val % 50 = 0) (h1 : t.val % 50 = 49) :
    (outsAt0 m c t.val t.isLt).1 = k0_pay4 (stepM (iblk m c 0 t) (iblk m c 1 t) (iblk m c 2 t) (iblk m c 3 t) (iblk m c 4 t) (outsAt0 m c (t.val - 1) (Nat.lt_of_le_of_lt (Nat.sub_le _ _) t.isLt)).2.2.2.1)
    ∧ (outsAt0 m c t.val t.isLt).2.1 = k0_pay5 (stepL (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1)
    ∧ (outsAt0 m c t.val t.isLt).2.2.1 = k0_pay6 (stepA (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  rw [outsAt0_C m c t h0 h1]
  dsimp only
  refine ⟨?_, ?_, ?_⟩
  · exact oC5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · exact oC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · exact oC7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- The running maximum, sum and weighted row sum the scratch holds after point `n`. -/
abbrev tripM (n : ℕ) (h : n < cfg0.N) : Vec F S1x1 .f32 := (outsAt0 m c n h).2.2.2.1
abbrev tripL (n : ℕ) (h : n < cfg0.N) : Vec F S1x1 .f32 := (outsAt0 m c n h).2.2.2.2.1
abbrev tripA (n : ℕ) (h : n < cfg0.N) : Vec F S1x1024 .f32 := (outsAt0 m c n h).2.2.2.2.2

end AnyValues
section Ideal
variable (m : (ℓ : Loc nD τ sig) → Buf (Elt Ideal) ℓ) (c : Dev nD)
variable (a : ℕ → Fin 2000 → ℝ) (x : ℕ → Fin 2000 → Fin 1024 → ℝ)

/-- The stored `-∞`, and the two stored zeros. -/
theorem pay7_apply : k0_pay7 (F := Ideal) (ix2 (0 : Fin 1) (0 : Fin 1)) = (⊥ : EReal) := by
  unfold k0_pay7
  rw [shapeCast_self]
  exact ofBits_neg_inf
theorem pay8_apply : k0_pay8 (F := Ideal) (ix2 (0 : Fin 1) (0 : Fin 1)) = (0 : EReal) := by
  unfold k0_pay8
  rw [shapeCast_self]
  exact Ideal.ofBits_zero_f32
theorem pay9_apply (j : Fin 1024) : k0_pay9 (F := Ideal) (ix2 (0 : Fin 1) j) = (0 : EReal) := by
  unfold k0_pay9
  rw [shapeCast_self]
  exact Ideal.ofBits_zero_f32

/-- The sums over the blocks `s, …, n`. -/
def sumE (s n : ℕ) : ℝ := ∑ t ∈ Finset.Icc s n, ∑ r : Fin 2000, Real.exp (a t r)
def sumX (s n : ℕ) (j : Fin 1024) : ℝ := ∑ t ∈ Finset.Icc s n, ∑ r : Fin 2000, Real.exp (a t r) * x t r j

variable (ha : ∀ (t : Fin cfg0.N) (r : Fin 2000), blockLogit (iblk m c 0 t) (iblk m c 1 t) (iblk m c 2 t) (iblk m c 3 t) (iblk m c 4 t) r = (a t.val r : EReal))
variable (hx : ∀ (t : Fin cfg0.N) (r : Fin 2000) (k : Fin 1024),
  (iblk m c 0 t : Vec Ideal S2000x1024 .f32) (ix2 r k) = (x t.val r k : EReal))

include ha in
/-- A block's largest logit is a real. -/
theorem blockMax_real (t : Fin cfg0.N) : ∃ B : ℝ, blockMax (iblk m c 0 t) (iblk m c 1 t) (iblk m c 2 t) (iblk m c 3 t) (iblk m c 4 t) = (B : EReal) := by
  unfold blockMax
  rw [show blockLogit (iblk m c 0 t) (iblk m c 1 t) (iblk m c 2 t) (iblk m c 3 t) (iblk m c 4 t) = fun r => (a t.val r : EReal) from funext (ha t), ofBits_neg_inf]
  exact fold_max_real _

include ha hx in
/-- After point `n` the triple is the sums over the run so far, at some real scale. -/
theorem scaled : ∀ (n : ℕ) (h : n < cfg0.N),
    Scaled (tripM m c n h (ix2 (0 : Fin 1) (0 : Fin 1))) (tripL m c n h (ix2 (0 : Fin 1) (0 : Fin 1)))
      (fun j => tripA m c n h (ix2 (0 : Fin 1) j)) (sumE a (n - n % 50) n) (sumX a x (n - n % 50) n) := by
  intro n
  induction n with
  | zero =>
    intro h
    obtain ⟨e0, e1, e2⟩ := trip_first m c ⟨0, h⟩ rfl (by show ¬(0 % 50 = 49); decide)
    obtain ⟨B, hB⟩ := blockMax_real m c a ha ⟨0, h⟩
    have hE : sumE a (0 - 0 % 50) 0 = ∑ r : Fin 2000, Real.exp (a 0 r) := by
      unfold sumE; rw [show (0 - 0 % 50) = 0 from rfl, Finset.Icc_self, Finset.sum_singleton]
    have hX : sumX a x (0 - 0 % 50) 0 = fun j => ∑ r : Fin 2000, Real.exp (a 0 r) * x 0 r j := by
      funext j; unfold sumX; rw [show (0 - 0 % 50) = 0 from rfl, Finset.Icc_self, Finset.sum_singleton]
    rw [hE, hX]
    have key : Scaled (stepM (F := Ideal) (iblk m c 0 ⟨0, h⟩) (iblk m c 1 ⟨0, h⟩) (iblk m c 2 ⟨0, h⟩) (iblk m c 3 ⟨0, h⟩) (iblk m c 4 ⟨0, h⟩) (k0_pay7 (F := Ideal)) (ix2 (0 : Fin 1) (0 : Fin 1)))
        (stepL (F := Ideal) (iblk m c 0 ⟨0, h⟩) (iblk m c 1 ⟨0, h⟩) (iblk m c 2 ⟨0, h⟩) (iblk m c 3 ⟨0, h⟩) (iblk m c 4 ⟨0, h⟩) (k0_pay7 (F := Ideal)) (k0_pay8 (F := Ideal)) (ix2 (0 : Fin 1) (0 : Fin 1)))
        (fun j => stepA (F := Ideal) (iblk m c 0 ⟨0, h⟩) (iblk m c 1 ⟨0, h⟩) (iblk m c 2 ⟨0, h⟩) (iblk m c 3 ⟨0, h⟩) (iblk m c 4 ⟨0, h⟩) (k0_pay7 (F := Ideal)) (k0_pay9 (F := Ideal)) (ix2 (0 : Fin 1) j))
        (∑ r : Fin 2000, Real.exp (a 0 r)) (fun j => ∑ r : Fin 2000, Real.exp (a 0 r) * x 0 r j) := by
      rw [stepM_apply, stepL_apply]
      simp only [stepA_apply, pay7_apply, pay8_apply, pay9_apply, hB, ha ⟨0, h⟩, hx ⟨0, h⟩]
      exact Scaled.init (a 0) (x 0) B
    rw [← e0, ← e1, ← e2] at key
    exact key
  | succ k ih =>
    intro h
    by_cases h0 : (k + 1) % 50 = 0
    · obtain ⟨e0, e1, e2⟩ := trip_first m c ⟨k + 1, h⟩ h0 (by show ¬(k + 1) % 50 = 49; omega)
      obtain ⟨B, hB⟩ := blockMax_real m c a ha ⟨k + 1, h⟩
      have hE : sumE a (k + 1 - (k + 1) % 50) (k + 1) = ∑ r : Fin 2000, Real.exp (a (k + 1) r) := by
        unfold sumE; rw [h0, Nat.sub_zero, Finset.Icc_self, Finset.sum_singleton]
      have hX : sumX a x (k + 1 - (k + 1) % 50) (k + 1) = fun j => ∑ r : Fin 2000, Real.exp (a (k + 1) r) * x (k + 1) r j := by
        funext j; unfold sumX; rw [h0, Nat.sub_zero, Finset.Icc_self, Finset.sum_singleton]
      rw [hE, hX]
      have key : Scaled (stepM (F := Ideal) (iblk m c 0 ⟨k + 1, h⟩) (iblk m c 1 ⟨k + 1, h⟩) (iblk m c 2 ⟨k + 1, h⟩) (iblk m c 3 ⟨k + 1, h⟩) (iblk m c 4 ⟨k + 1, h⟩) (k0_pay7 (F := Ideal)) (ix2 (0 : Fin 1) (0 : Fin 1)))
          (stepL (F := Ideal) (iblk m c 0 ⟨k + 1, h⟩) (iblk m c 1 ⟨k + 1, h⟩) (iblk m c 2 ⟨k + 1, h⟩) (iblk m c 3 ⟨k + 1, h⟩) (iblk m c 4 ⟨k + 1, h⟩) (k0_pay7 (F := Ideal)) (k0_pay8 (F := Ideal)) (ix2 (0 : Fin 1) (0 : Fin 1)))
          (fun j => stepA (F := Ideal) (iblk m c 0 ⟨k + 1, h⟩) (iblk m c 1 ⟨k + 1, h⟩) (iblk m c 2 ⟨k + 1, h⟩) (iblk m c 3 ⟨k + 1, h⟩) (iblk m c 4 ⟨k + 1, h⟩) (k0_pay7 (F := Ideal)) (k0_pay9 (F := Ideal)) (ix2 (0 : Fin 1) j))
          (∑ r : Fin 2000, Real.exp (a (k + 1) r)) (fun j => ∑ r : Fin 2000, Real.exp (a (k + 1) r) * x (k + 1) r j) := by
        rw [stepM_apply, stepL_apply]
        simp only [stepA_apply, pay7_apply, pay8_apply, pay9_apply, hB, ha ⟨k + 1, h⟩, hx ⟨k + 1, h⟩]
        exact Scaled.init (a (k + 1)) (x (k + 1)) B
      rw [← e0, ← e1, ← e2] at key
      exact key
    · obtain ⟨e0, e1, e2⟩ := trip_next m c ⟨k + 1, h⟩ h0
      obtain ⟨B, hB⟩ := blockMax_real m c a ha ⟨k + 1, h⟩
      have hs : k + 1 - (k + 1) % 50 = k - k % 50 := by omega
      have hle : k - k % 50 ≤ k + 1 := by omega
      have hE : sumE a (k + 1 - (k + 1) % 50) (k + 1) = sumE a (k - k % 50) k + ∑ r : Fin 2000, Real.exp (a (k + 1) r) := by
        unfold sumE; rw [hs, Finset.sum_Icc_succ_top hle]
      have hX : sumX a x (k + 1 - (k + 1) % 50) (k + 1)
          = fun j => sumX a x (k - k % 50) k j + ∑ r : Fin 2000, Real.exp (a (k + 1) r) * x (k + 1) r j := by
        funext j; unfold sumX; rw [hs, Finset.sum_Icc_succ_top hle]
      rw [hE, hX]
      have key : Scaled (stepM (F := Ideal) (iblk m c 0 (⟨k + 1, h⟩ : Fin cfg0.N)) (iblk m c 1 (⟨k + 1, h⟩ : Fin cfg0.N)) (iblk m c 2 (⟨k + 1, h⟩ : Fin cfg0.N)) (iblk m c 3 (⟨k + 1, h⟩ : Fin cfg0.N)) (iblk m c 4 (⟨k + 1, h⟩ : Fin cfg0.N)) (outsAt0 m c ((⟨k + 1, h⟩ : Fin cfg0.N).val - 1) (Nat.lt_of_le_of_lt (Nat.sub_le _ _) (⟨k + 1, h⟩ : Fin cfg0.N).isLt)).2.2.2.1 (ix2 (0 : Fin 1) (0 : Fin 1)))
          (stepL (F := Ideal) (iblk m c 0 (⟨k + 1, h⟩ : Fin cfg0.N)) (iblk m c 1 (⟨k + 1, h⟩ : Fin cfg0.N)) (iblk m c 2 (⟨k + 1, h⟩ : Fin cfg0.N)) (iblk m c 3 (⟨k + 1, h⟩ : Fin cfg0.N)) (iblk m c 4 (⟨k + 1, h⟩ : Fin cfg0.N)) (outsAt0 m c ((⟨k + 1, h⟩ : Fin cfg0.N).val - 1) (Nat.lt_of_le_of_lt (Nat.sub_le _ _) (⟨k + 1, h⟩ : Fin cfg0.N).isLt)).2.2.2.1 (outsAt0 m c ((⟨k + 1, h⟩ : Fin cfg0.N).val - 1) (Nat.lt_of_le_of_lt (Nat.sub_le _ _) (⟨k + 1, h⟩ : Fin cfg0.N).isLt)).2.2.2.2.1 (ix2 (0 : Fin 1) (0 : Fin 1)))
          (fun j => stepA (F := Ideal) (iblk m c 0 (⟨k + 1, h⟩ : Fin cfg0.N)) (iblk m c 1 (⟨k + 1, h⟩ : Fin cfg0.N)) (iblk m c 2 (⟨k + 1, h⟩ : Fin cfg0.N)) (iblk m c 3 (⟨k + 1, h⟩ : Fin cfg0.N)) (iblk m c 4 (⟨k + 1, h⟩ : Fin cfg0.N)) (outsAt0 m c ((⟨k + 1, h⟩ : Fin cfg0.N).val - 1) (Nat.lt_of_le_of_lt (Nat.sub_le _ _) (⟨k + 1, h⟩ : Fin cfg0.N).isLt)).2.2.2.1 (outsAt0 m c ((⟨k + 1, h⟩ : Fin cfg0.N).val - 1) (Nat.lt_of_le_of_lt (Nat.sub_le _ _) (⟨k + 1, h⟩ : Fin cfg0.N).isLt)).2.2.2.2.2 (ix2 (0 : Fin 1) j))
          (sumE a (k - k % 50) k + ∑ r : Fin 2000, Real.exp (a (k + 1) r))
          (fun j => sumX a x (k - k % 50) k j + ∑ r : Fin 2000, Real.exp (a (k + 1) r) * x (k + 1) r j) := by
        rw [stepM_apply, stepL_apply]
        simp only [stepA_apply, hB, ha (⟨k + 1, h⟩ : Fin cfg0.N), hx (⟨k + 1, h⟩ : Fin cfg0.N)]
        exact Scaled.step (ih (Nat.lt_of_succ_lt h)) (a (k + 1)) (x (k + 1)) B
      rw [← e0, ← e1, ← e2] at key
      exact key

end Ideal

end Cert.KernelIdeal.Fold

end
-- ==== Proof.Logit.lean ====
import proofs.«120143_j45724221833328_2_alg».proof.Proof.StepValue

/-!
A block's logits, read index by index.

The two gate matrices enter as one `[64, 1024]` block (rows `0 … 31` the tanh gate, rows `32 … 63` the logistic
gate) and the two biases as one `[1, 64]` row.  Row `r` of the block has pre-activations
`g q = (∑_k x r k · W q k) + b q`, and its logit is `(∑_h tanh (g h) · σ (g (32 + h)) · w h) + c`.
-/

noncomputable section
open Idealize.ShloMosaic Idealize.ShloMosaic.TcCoe Idealize.SL.Sem

namespace Cert.KernelIdeal.Logit
open Cert.KernelIdeal Cert.KernelIdeal.Gen Cert.KernelIdeal.StepValue Idealize.ShloMosaic.ValueIdx

/-- Row `h` of the tanh gate and row `h` of the logistic gate inside the fused `64`-row block. -/
def lo (h : Fin 32) : Fin 64 := ⟨h.val, by omega⟩
def hi (h : Fin 32) : Fin 64 := ⟨32 + h.val, by omega⟩

section
variable (x0 : Vec Ideal S2000x1024 .f32) (x1 : Vec Ideal S64x1024 .bf16) (x2 : Vec Ideal S1x64 .f32)
  (x3 : Vec Ideal S1x32 .bf16) (x4 : Vec Ideal S1x1 .f32)

/-- The pre-activations of the block's rows: the rows against the fused gate matrix, plus the fused bias. -/
def gate : FVec Ideal S2000x64 .f32 :=
  addf (matmul dot_S2000x1024_S1024x64_S2000x64_1_0_0_1_n_n none (k0_pay10 (F := Ideal) x0)
      (transpose S1024x64 [1, 0] (shapeCast S64x1024 x1 shapeCasts_S64x1024_S64x1024 : FVec Ideal S64x1024 .bf16) transposes_S64x1024_p1_0_S1024x64 : FVec Ideal S1024x64 .bf16)
      (constant S2000x64 .f32 0x00000000#32))
    (broadcastTo S2000x64 (shapeCast S1x64 x2 shapeCasts_S1x64_S1x64 : FVec Ideal S1x64 .f32) broadcasts_S1x64_S2000x64)

theorem gate_apply (r : Fin 2000) (q : Fin 64) :
    gate x0 x1 x2 (ix2 r q) = (∑ k : Fin 1024, x0 (ix2 r k) * x1 (ix2 q k)) + x2 (ix2 (0 : Fin 1) q) := by
  unfold gate
  show matmul dot_S2000x1024_S1024x64_S2000x64_1_0_0_1_n_n none _ _ (constant (F := Ideal) S2000x64 .f32 0x00000000#32) (ix2 r q)
    + broadcastTo S2000x64 _ broadcasts_S1x64_S2000x64 (ix2 r q) = _
  rw [mm_gate, broadcastTo_1b_ab_apply]
  simp only [shapeCast_self]
  refine congrArg (fun z : EReal => z + x2 (ix2 (0 : Fin 1) q)) (Finset.sum_congr rfl fun k _ => ?_)
  rw [transpose_ix2_apply]
  rfl

/-- The logits, spelt over the pre-activations. -/
theorem pay11_eq : k0_pay11 (F := Ideal) x0 x1 x2 x3 x4 =
    addf (matmul dot_S2000x32_S32x1_S2000x1_1_0_0_1_n_n none
        (truncf .bf16 (mulf (tanh (extractStridedSlice S2000x32 ![0, 0] (gate x0 x1 x2) slices_S2000x64_o0_0_S2000x32 : FVec Ideal S2000x32 .f32))
          (logistic (extractStridedSlice S2000x32 ![0, 32] (gate x0 x1 x2) slices_S2000x64_o0_32_S2000x32 : FVec Ideal S2000x32 .f32))) bitsLt_bf16_f32 : FVec Ideal S2000x32 .bf16)
        (transpose S32x1 [1, 0] (shapeCast S1x32 x3 shapeCasts_S1x32_S1x32 : FVec Ideal S1x32 .bf16) transposes_S1x32_p1_0_S32x1 : FVec Ideal S32x1 .bf16)
        (constant S2000x1 .f32 0x00000000#32))
      (broadcastTo S2000x1 (shapeCast S1x1 x4 shapeCasts_S1x1_S1x1 : FVec Ideal S1x1 .f32) broadcasts_S1x1_S2000x1) := rfl

/-- The logit of row `r`. -/
theorem pay11_apply (r : Fin 2000) :
    k0_pay11 (F := Ideal) x0 x1 x2 x3 x4 (ix2 r (0 : Fin 1))
      = (∑ h : Fin 32, (Ideal.tanh (gate x0 x1 x2 (ix2 r (lo h))) * Ideal.logistic (gate x0 x1 x2 (ix2 r (hi h))))
          * x3 (ix2 (0 : Fin 1) h)) + x4 (ix2 (0 : Fin 1) (0 : Fin 1)) := by
  rw [pay11_eq]
  show matmul dot_S2000x32_S32x1_S2000x1_1_0_0_1_n_n none _ _ (constant (F := Ideal) S2000x1 .f32 0x00000000#32) (ix2 r (0 : Fin 1))
    + broadcastTo S2000x1 _ broadcasts_S1x1_S2000x1 (ix2 r (0 : Fin 1)) = _
  rw [mm_logit, spreadCol_apply]
  simp only [shapeCast_self]
  refine congrArg (fun z : EReal => z + x4 (ix2 (0 : Fin 1) (0 : Fin 1))) (Finset.sum_congr rfl fun h _ => ?_)
  rw [transpose_ix2_apply]
  refine congrArg (fun z : EReal => z * x3 (ix2 (0 : Fin 1) h)) ?_
  show Ideal.tanh (extractStridedSlice S2000x32 ![0, 0] (gate x0 x1 x2) slices_S2000x64_o0_0_S2000x32 (ix2 r h))
    * Ideal.logistic (extractStridedSlice S2000x32 ![0, 32] (gate x0 x1 x2) slices_S2000x64_o0_32_S2000x32 (ix2 r h)) = _
  rw [slice2_axis1_apply 0 _ _ r h (lo h) (by show h.val = 0 + h.val; omega), slice2_axis1_apply 32 _ _ r h (hi h) rfl]

end

end Cert.KernelIdeal.Logit

end
-- ==== Proof.Spec.lean ====
import proofs.«120143_j45724221833328_2_alg».proof.Proof.Softmax
import Idealize.ShloMosaic.Lib.ValueIdx

/-!
The attention logit of a row, as one expression of the seven argument arrays, and the attention-weighted
average of the rows.

`logit n = (∑_h tanh (x_n · V_h + bV_h) · σ (x_n · U_h + bU_h) · w_h) + b`, with `σ z = 1 / (1 + e^{-z})`.
The result is `out j = (∑_n e^{logit n} · x_{n j}) / ∑_n e^{logit n}`.  On finite arguments every logit is a real.
-/

noncomputable section

namespace Cert.Spec

open Idealize.ShloMosaic Idealize.ShloMosaic.ValueIdx Cert.Softmax

/-- An extended real that is a real number. -/
def IsReal (z : EReal) : Prop := ∃ r : ℝ, z = (r : EReal)

/-- The logit of row `n`. -/
def logit (X : (⟨2, ![200000, 1024]⟩ : Shape).Idx → EReal) (Vw : (⟨2, ![32, 1024]⟩ : Shape).Idx → EReal)
    (Vb : (⟨1, ![32]⟩ : Shape).Idx → EReal) (Uw : (⟨2, ![32, 1024]⟩ : Shape).Idx → EReal)
    (Ub : (⟨1, ![32]⟩ : Shape).Idx → EReal) (ww : (⟨2, ![1, 32]⟩ : Shape).Idx → EReal)
    (wb : (⟨1, ![1]⟩ : Shape).Idx → EReal) (n : Fin 200000) : EReal :=
  (∑ h : Fin 32,
      (Ideal.tanh ((∑ k : Fin 1024, X (ix2 n k) * Vw (ix2 h k)) + Vb (ix1 h))
        * Ideal.logistic ((∑ k : Fin 1024, X (ix2 n k) * Uw (ix2 h k)) + Ub (ix1 h)))
      * ww (ix2 (0 : Fin 1) h))
    + wb (ix1 (0 : Fin 1))

/-- On real arguments every logit is a real. -/
theorem logit_real {X : (⟨2, ![200000, 1024]⟩ : Shape).Idx → EReal} {Vw : (⟨2, ![32, 1024]⟩ : Shape).Idx → EReal}
    {Vb : (⟨1, ![32]⟩ : Shape).Idx → EReal} {Uw : (⟨2, ![32, 1024]⟩ : Shape).Idx → EReal}
    {Ub : (⟨1, ![32]⟩ : Shape).Idx → EReal} {ww : (⟨2, ![1, 32]⟩ : Shape).Idx → EReal}
    {wb : (⟨1, ![1]⟩ : Shape).Idx → EReal}
    (hX : ∀ i, IsReal (X i)) (hVw : ∀ i, IsReal (Vw i)) (hVb : ∀ i, IsReal (Vb i)) (hUw : ∀ i, IsReal (Uw i))
    (hUb : ∀ i, IsReal (Ub i)) (hww : ∀ i, IsReal (ww i)) (hwb : ∀ i, IsReal (wb i)) (n : Fin 200000) :
    IsReal (logit X Vw Vb Uw Ub ww wb n) := by
  choose xr hxr using hX
  choose vw hvw using hVw
  choose vb hvb using hVb
  choose uw huw using hUw
  choose ub hub using hUb
  choose w hw using hww
  choose b hb using hwb
  unfold logit
  simp only [hxr, hvw, hvb, huw, hub, hw, hb, ← EReal.coe_mul, ← coe_sum, ← EReal.coe_add, Ideal.tanh_coe,
    Ideal.logistic_coe]
  exact ⟨_, rfl⟩

/-- The attention-weighted average of column `j`, from real logits `a` and real features `x`. -/
def out (a : Fin 200000 → ℝ) (x : Fin 200000 → Fin 1024 → ℝ) (j : Fin 1024) : ℝ :=
  (∑ n : Fin 200000, Real.exp (a n) * x n j) / ∑ n : Fin 200000, Real.exp (a n)

end Cert.Spec

end
-- ==== Proof.Blocks.lean ====
import proofs.«120143_j45724221833328_2_alg».proof.Proof.Fold
import proofs.«120143_j45724221833328_2_alg».proof.Proof.Logit
import proofs.«120143_j45724221833328_2_alg».proof.Proof.Spec
import Idealize.ShloMosaic.Lib.StableHlo.Run
import Idealize.ShloMosaic.Lib.Tactic

/-!
The blocks a grid point sees, as entries of the argument arrays, and the block's logits as the specification's.

Point `t` sees rows `2000 t, …, 2000 t + 1999` of `x`; the fused gate matrix is the two gate matrices stacked, the
fused bias the two biases side by side, the output weights and bias the arguments re-laid.  So the logit of row `r`
of the block is the specification's logit of row `2000 t + r`.
-/

set_option maxRecDepth 16384

noncomputable section
open Idealize.ShloMosaic Idealize.ShloMosaic.TcCoe Idealize.SL.Sem

namespace Cert.KernelIdeal.Blocks
open Cert.KernelIdeal Cert.KernelIdeal.Gen Cert.KernelIdeal.StepValue Cert.KernelIdeal.Logit
open Idealize.ShloMosaic.ValueIdx

/-- The printed index maps over the grid: the row window moves one block per point, the others stay. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-- The row of `x` that row `r` of point `t`'s block is. -/
def row (t : Fin cfg0.N) (r : Fin 2000) : Fin 200000 :=
  ⟨2000 * t.val + r.val, by have := t.isLt; have hN : cfg0.N = 100 := N_0; have := r.isLt; omega⟩

section
variable (m : (ℓ : Loc nD τ sig) → Buf (Elt Ideal) ℓ) (c : Dev nD)

/-! What the host lines before the region leave in the four derived arrays. -/

theorem V_v1 : (V m c main_v1 : S64x1024.Idx → EReal)
    = truncf (F := Ideal) .bf16 (concatenate S64x1024 0 [⟨S32x1024, (m ((c.tc : Thread nD τ).loc main_arg1))⟩, ⟨S32x1024, (m ((c.tc : Thread nD τ).loc main_arg3))⟩]
        concatenates_S32x1024_S32x1024_S64x1024_d0) bitsLt_bf16_f32 := by
  show StableHlo.after hostOps0 (fun b => m (c, b)) (Proc.devRef .tc main_v1) = _
  after_results <;> rfl

theorem V_v3 : (V m c main_v3 : S1x64.Idx → EReal)
    = shapeCast S1x64 (concatenate S64 0 [⟨S32, (m ((c.tc : Thread nD τ).loc main_arg2))⟩, ⟨S32, (m ((c.tc : Thread nD τ).loc main_arg4))⟩] concatenates_S32_S32_S64_d0)
        shapeCasts_S64_S1x64 := by
  show StableHlo.after hostOps0 (fun b => m (c, b)) (Proc.devRef .tc main_v3) = _
  after_results <;> rfl

theorem V_v4 : (V m c main_v4 : S1x32.Idx → EReal) = truncf (F := Ideal) .bf16 (m ((c.tc : Thread nD τ).loc main_arg5)) bitsLt_bf16_f32 := by
  show StableHlo.after hostOps0 (fun b => m (c, b)) (Proc.devRef .tc main_v4) = _
  after_results <;> rfl

theorem V_v5 : (V m c main_v5 : S1x1.Idx → EReal) = shapeCast S1x1 (m ((c.tc : Thread nD τ).loc main_arg6)) shapeCasts_S1_S1x1 := by
  show StableHlo.after hostOps0 (fun b => m (c, b)) (Proc.devRef .tc main_v5) = _
  after_results <;> rfl

/-! The blocks, entry by entry. -/

theorem blk0 (t : Fin cfg0.N) (r : Fin 2000) (k : Fin 1024) :
    (iblk m c 0 t : Vec Ideal S2000x1024 .f32) (ix2 r k) = (m ((c.tc : Thread nD τ).loc main_arg0)) (ix2 (row t r) k) := by
  have hi := idx0 t
  unfold iblk
  rw [View.read_apply]
  show V m c main_arg0 _ = _
  rw [V_main_arg0]
  refine congrArg (m ((c.tc : Thread nD τ).loc main_arg0)) ?_
  funext a; apply Fin.ext
  match a with
  | ⟨0, _⟩ => show win0_0.index t (0 : Fin 2) * 2000 + 1 * r.val = 2000 * t.val + r.val; rw [hi.1]; omega
  | ⟨1, _⟩ => show win0_0.index t (1 : Fin 2) * 1024 + 1 * k.val = k.val; rw [hi.2]; omega

theorem blk1 (t : Fin cfg0.N) (q : Fin 64) (k : Fin 1024) :
    (iblk m c 1 t : Vec Ideal S64x1024 .bf16) (ix2 q k) = (V m c main_v1 : S64x1024.Idx → EReal) (ix2 q k) := by
  have hi := idx1 t
  unfold iblk
  rw [View.read_apply]
  show V m c main_v1 _ = _
  refine congrArg (V m c main_v1) ?_
  funext a; apply Fin.ext
  match a with
  | ⟨0, _⟩ => show win0_1.index t (0 : Fin 2) * 64 + 1 * q.val = q.val; rw [hi.1]; omega
  | ⟨1, _⟩ => show win0_1.index t (1 : Fin 2) * 1024 + 1 * k.val = k.val; rw [hi.2]; omega

theorem blk2 (t : Fin cfg0.N) (q : Fin 64) :
    (iblk m c 2 t : Vec Ideal S1x64 .f32) (ix2 (0 : Fin 1) q) = (V m c main_v3 : S1x64.Idx → EReal) (ix2 (0 : Fin 1) q) := by
  have hi := idx2 t
  unfold iblk
  rw [View.read_apply]
  show V m c main_v3 _ = _
  refine congrArg (V m c main_v3) ?_
  funext a; apply Fin.ext
  match a with
  | ⟨0, _⟩ => show win0_2.index t (0 : Fin 2) * 1 + 1 * 0 = 0; rw [hi.1]
  | ⟨1, _⟩ => show win0_2.index t (1 : Fin 2) * 64 + 1 * q.val = q.val; rw [hi.2]; omega

theorem blk3 (t : Fin cfg0.N) (h : Fin 32) :
    (iblk m c 3 t : Vec Ideal S1x32 .bf16) (ix2 (0 : Fin 1) h) = (V m c main_v4 : S1x32.Idx → EReal) (ix2 (0 : Fin 1) h) := by
  have hi := idx3 t
  unfold iblk
  rw [View.read_apply]
  show V m c main_v4 _ = _
  refine congrArg (V m c main_v4) ?_
  funext a; apply Fin.ext
  match a with
  | ⟨0, _⟩ => show win0_3.index t (0 : Fin 2) * 1 + 1 * 0 = 0; rw [hi.1]
  | ⟨1, _⟩ => show win0_3.index t (1 : Fin 2) * 32 + 1 * h.val = h.val; rw [hi.2]; omega

theorem blk4 (t : Fin cfg0.N) :
    (iblk m c 4 t : Vec Ideal S1x1 .f32) (ix2 (0 : Fin 1) (0 : Fin 1)) = (V m c main_v5 : S1x1.Idx → EReal) (ix2 (0 : Fin 1) (0 : Fin 1)) := by
  have hi := idx4 t
  unfold iblk
  rw [View.read_apply]
  show V m c main_v5 _ = _
  refine congrArg (V m c main_v5) ?_
  funext a; apply Fin.ext
  match a with
  | ⟨0, _⟩ => show win0_4.index t (0 : Fin 2) * 1 + 1 * 0 = 0; rw [hi.1]
  | ⟨1, _⟩ => show win0_4.index t (1 : Fin 2) * 1 + 1 * 0 = 0; rw [hi.2]

/-! The derived arrays, entry by entry, as entries of the arguments. -/

theorem gateW_lo (h : Fin 32) (k : Fin 1024) :
    (V m c main_v1 : S64x1024.Idx → EReal) (ix2 (lo h) k) = (m ((c.tc : Thread nD τ).loc main_arg1)) (ix2 h k) := by
  rw [V_v1]
  show concatenate S64x1024 0 [⟨S32x1024, (m ((c.tc : Thread nD τ).loc main_arg1))⟩, ⟨S32x1024, (m ((c.tc : Thread nD τ).loc main_arg3))⟩]
    concatenates_S32x1024_S32x1024_S64x1024_d0 (ix2 (lo h) k) = _
  exact concatenate_pair_apply_left (s₁ := S32x1024) (s₂ := S32x1024) 0 _ _ _ (ix2 (lo h) k) rfl (ix2 h k)
    (fun b => by match b with | ⟨0, _⟩ => rfl | ⟨1, _⟩ => rfl)

theorem gateW_hi (h : Fin 32) (k : Fin 1024) :
    (V m c main_v1 : S64x1024.Idx → EReal) (ix2 (hi h) k) = (m ((c.tc : Thread nD τ).loc main_arg3)) (ix2 h k) := by
  rw [V_v1]
  show concatenate S64x1024 0 [⟨S32x1024, (m ((c.tc : Thread nD τ).loc main_arg1))⟩, ⟨S32x1024, (m ((c.tc : Thread nD τ).loc main_arg3))⟩]
    concatenates_S32x1024_S32x1024_S64x1024_d0 (ix2 (hi h) k) = _
  exact concatenate_pair_apply_right (s₁ := S32x1024) (s₂ := S32x1024) 0 _ _ _ (ix2 (hi h) k) rfl rfl (ix2 h k)
    (fun b hb => by match b with | ⟨0, _⟩ => exact absurd rfl hb | ⟨1, _⟩ => rfl)
    (by show h.val + 32 = 32 + h.val; omega)

theorem gateB_lo (h : Fin 32) :
    (V m c main_v3 : S1x64.Idx → EReal) (ix2 (0 : Fin 1) (lo h)) = (m ((c.tc : Thread nD τ).loc main_arg2)) (ix1 h) := by
  rw [V_v3, shapeCast_a_1a_apply]
  exact concatenate_pair_apply_left (s₁ := S32) (s₂ := S32) 0 _ _ _ (ix1 (lo h)) rfl (ix1 h)
    (fun b => by match b with | ⟨0, _⟩ => rfl)

theorem gateB_hi (h : Fin 32) :
    (V m c main_v3 : S1x64.Idx → EReal) (ix2 (0 : Fin 1) (hi h)) = (m ((c.tc : Thread nD τ).loc main_arg4)) (ix1 h) := by
  rw [V_v3, shapeCast_a_1a_apply]
  exact concatenate_pair_apply_right (s₁ := S32) (s₂ := S32) 0 _ _ _ (ix1 (hi h)) rfl rfl (ix1 h)
    (fun b hb => by match b with | ⟨0, _⟩ => exact absurd rfl hb)
    (by show h.val + 32 = 32 + h.val; omega)

theorem outW (h : Fin 32) :
    (V m c main_v4 : S1x32.Idx → EReal) (ix2 (0 : Fin 1) h) = (m ((c.tc : Thread nD τ).loc main_arg5)) (ix2 (0 : Fin 1) h) := by
  rw [V_v4]; rfl

theorem outB :
    (V m c main_v5 : S1x1.Idx → EReal) (ix2 (0 : Fin 1) (0 : Fin 1)) = (m ((c.tc : Thread nD τ).loc main_arg6)) (ix1 (0 : Fin 1)) := by
  rw [V_v5, shapeCast_a_1a_apply]

/-! The blocks' entries as entries of the arguments. -/

theorem blk1_lo (t : Fin cfg0.N) (h : Fin 32) (k : Fin 1024) :
    (iblk m c 1 t : Vec Ideal S64x1024 .bf16) (ix2 (lo h) k) = (m ((c.tc : Thread nD τ).loc main_arg1)) (ix2 h k) :=
  (blk1 m c t (lo h) k).trans (gateW_lo m c h k)
theorem blk1_hi (t : Fin cfg0.N) (h : Fin 32) (k : Fin 1024) :
    (iblk m c 1 t : Vec Ideal S64x1024 .bf16) (ix2 (hi h) k) = (m ((c.tc : Thread nD τ).loc main_arg3)) (ix2 h k) :=
  (blk1 m c t (hi h) k).trans (gateW_hi m c h k)
theorem blk2_lo (t : Fin cfg0.N) (h : Fin 32) :
    (iblk m c 2 t : Vec Ideal S1x64 .f32) (ix2 (0 : Fin 1) (lo h)) = (m ((c.tc : Thread nD τ).loc main_arg2)) (ix1 h) :=
  (blk2 m c t (lo h)).trans (gateB_lo m c h)
theorem blk2_hi (t : Fin cfg0.N) (h : Fin 32) :
    (iblk m c 2 t : Vec Ideal S1x64 .f32) (ix2 (0 : Fin 1) (hi h)) = (m ((c.tc : Thread nD τ).loc main_arg4)) (ix1 h) :=
  (blk2 m c t (hi h)).trans (gateB_hi m c h)
theorem blk3_w (t : Fin cfg0.N) (h : Fin 32) :
    (iblk m c 3 t : Vec Ideal S1x32 .bf16) (ix2 (0 : Fin 1) h) = (m ((c.tc : Thread nD τ).loc main_arg5)) (ix2 (0 : Fin 1) h) :=
  (blk3 m c t h).trans (outW m c h)
theorem blk4_b (t : Fin cfg0.N) :
    (iblk m c 4 t : Vec Ideal S1x1 .f32) (ix2 (0 : Fin 1) (0 : Fin 1)) = (m ((c.tc : Thread nD τ).loc main_arg6)) (ix1 (0 : Fin 1)) :=
  (blk4 m c t).trans (outB m c)

/-- The logit of row `r` of point `t`'s block is the specification's logit of row `2000 t + r`. -/
theorem blockLogit_eq (t : Fin cfg0.N) (r : Fin 2000) :
    blockLogit (iblk m c 0 t) (iblk m c 1 t) (iblk m c 2 t) (iblk m c 3 t) (iblk m c 4 t) r
      = Spec.logit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (row t r) := by
  unfold blockLogit
  rw [pay11_apply]
  unfold Spec.logit
  simp only [gate_apply, blk0, blk1_lo, blk1_hi, blk2_lo, blk2_hi, blk3_w, blk4_b]

end

end Cert.KernelIdeal.Blocks

end
-- ==== Proof.Result.lean ====
import proofs.«120143_j45724221833328_2_alg».proof.Proof.Fold
import Idealize.ShloMosaic.Lib.Pipeline.Value
import Idealize.ShloMosaic.Lib.ValueLayout
import Idealize.ShloMosaic.Lib.StableHlo.Run
import Idealize.ShloMosaic.Lib.Tactic

/-!
The three arrays the region leaves, and the merge the host performs on them.

Each run of fifty points writes its triple back once, after its last point, into row `q` of the `[2, 1, 1]`,
`[2, 1, 1]` and `[2, 1, 1024]` arrays.  The host then rescales both rows to their common maximum, adds them and
divides the weighted row sums by the sum of exponentials.
-/

set_option maxRecDepth 16384

noncomputable section
open Idealize.ShloMosaic Idealize.ShloMosaic.TcCoe Idealize.SL.Sem
open Idealize.ShloMosaic.Pipeline (Dat)

namespace Cert.KernelIdeal.Result
open Cert.KernelIdeal Cert.KernelIdeal.Gen Cert.KernelIdeal.Pieces Cert.KernelIdeal.Fold Idealize.ShloMosaic.ValueIdx

/-- The output windows' printed index maps over the grid: block `t / 50` of the leading axis. -/
theorem idx5 : ∀ t : Fin cfg0.N, win0_5.index t (0 : Fin 3) = t.val / 50 ∧ win0_5.index t (1 : Fin 3) = 0
    ∧ win0_5.index t (2 : Fin 3) = 0 := (by decide +kernel : ∀ t : Fin grid0.N, _)
theorem idx6 : ∀ t : Fin cfg0.N, win0_6.index t (0 : Fin 3) = t.val / 50 ∧ win0_6.index t (1 : Fin 3) = 0
    ∧ win0_6.index t (2 : Fin 3) = 0 := (by decide +kernel : ∀ t : Fin grid0.N, _)
theorem idx7 : ∀ t : Fin cfg0.N, win0_7.index t (0 : Fin 3) = t.val / 50 ∧ win0_7.index t (1 : Fin 3) = 0
    ∧ win0_7.index t (2 : Fin 3) = 0 := (by decide +kernel : ∀ t : Fin grid0.N, _)

/-- The last point of run `q`. -/
def lastPt (q : ℕ) (hq : q < 2) : Fin cfg0.N := ⟨50 * q + 49, by have hN : cfg0.N = 100 := N_0; omega⟩

section AnyValues
variable {F : FTy → Type} [FloatOps F]
variable (m : (ℓ : Loc nD τ sig) → Buf (Elt F) ℓ) (c : Dev nD)

theorem trip_congr {n1 n2 : ℕ} (e : n1 = n2) (h1 : n1 < cfg0.N) (h2 : n2 < cfg0.N) :
    outsAt0 m c n1 h1 = outsAt0 m c n2 h2 := by subst e; rfl

/-- Output array 0 after the region: row `q` is what the run `q` left at its last point. -/
def outM : S2x1x1.Idx → Elt F .f32 :=
  fun i => (outsAt0 m c (lastPt (i 0).val (i 0).isLt).val (lastPt (i 0).val (i 0).isLt).isLt).2.2.2.1 (ix2 (0 : Fin 1) (0 : Fin 1))

theorem after5_last (t : Fin cfg0.N) (h49 : t.val % 50 = 49) :
    (dats m 0 c).after 5 t = k0_pay4 (outsAt0 m c t.val t.isLt).2.2.2.1 := by
  have h0 : ¬t.val % 50 = 0 := by omega
  obtain ⟨o5, o6, o7⟩ := outs_last m c t h0 h49
  obtain ⟨s0, s1, s2⟩ := trip_next m c t h0
  rw [after0_5, o5, s0]

theorem flushed5 (t : Fin cfg0.N) (hf : (cfg0.win 5).flush t = true) :
    (dats m 0 c).flushed 5 t = ((cfg0.win 5).blk t).view.read (Elt F) (outM m c) := by
  have h49 : t.val % 50 = 49 := (flush0_5 t).mp hf
  have hi := idx5 t
  show (cfg0.win 5).cut (grid0.coords t) ((dats m 0 c).after 5 t) = _
  rw [after5_last m c t h49]
  funext y
  rw [View.read_apply]
  show k0_pay4 (outsAt0 m c t.val t.isLt).2.2.2.1 y = outM m c (((cfg0.win 5).blk t).view.emb y)
  have hy0 : (y 0).val < 1 := (y 0).isLt
  have hy1 : (y 1).val < 1 := (y 1).isLt
  have hy2 : (y 2).val < 1 := (y 2).isLt
  have hy : y = ix3 (0 : Fin 1) (0 : Fin 1) (0 : Fin 1) := funext fun a => Fin.ext (by
    match a with
    | ⟨0, _⟩ => show (y 0).val = 0; omega
    | ⟨1, _⟩ => show (y 1).val = 0; omega
    | ⟨2, _⟩ => show (y 2).val = 0; omega)
  have hl : k0_pay4 (outsAt0 m c t.val t.isLt).2.2.2.1 y = (outsAt0 m c t.val t.isLt).2.2.2.1 (ix2 (0 : Fin 1) (0 : Fin 1)) := by
    rw [hy]
    unfold k0_pay4
    exact shapeCast_ab_1ab_apply _ _ _ _ _
  rw [hl]
  unfold outM
  have hn : (lastPt ((((cfg0.win 5).blk t).view.emb y) 0).val ((((cfg0.win 5).blk t).view.emb y) 0).isLt).val = t.val := by
    show 50 * (win0_5.index t (0 : Fin 3) * 1 + 1 * (y 0).val) + 49 = t.val
    rw [hi.1]; omega
  rw [trip_congr m c hn _ t.isLt]

theorem cover5 (i : S2x1x1.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 1 := (i 2).isLt
  have hi := idx5 (lastPt (i 0).val h0)
  refine ⟨lastPt (i 0).val h0, (flush0_5 _).mpr (by show (50 * (i 0).val + 49) % 50 = 49; omega), ?_⟩
  show i ∈ ((View.whole main_v6_0).slice (win0_5.rect (lastPt (i 0).val h0))).set
  rw [View.set_slice_whole, Rect.mem_set_unit]
  intro a
  match a with
  | ⟨0, _⟩ =>
    show win0_5.index (lastPt (i 0).val h0) (0 : Fin 3) * 1 ≤ (i 0).val
      ∧ (i 0).val < win0_5.index (lastPt (i 0).val h0) (0 : Fin 3) * 1 + 1
    rw [hi.1]; show (50 * (i 0).val + 49) / 50 * 1 ≤ (i 0).val ∧ (i 0).val < (50 * (i 0).val + 49) / 50 * 1 + 1; omega
  | ⟨1, _⟩ =>
    show win0_5.index (lastPt (i 0).val h0) (1 : Fin 3) * 1 ≤ (i 1).val
      ∧ (i 1).val < win0_5.index (lastPt (i 0).val h0) (1 : Fin 3) * 1 + 1
    rw [hi.2.1]; omega
  | ⟨2, _⟩ =>
    show win0_5.index (lastPt (i 0).val h0) (2 : Fin 3) * 1 ≤ (i 2).val
      ∧ (i 2).val < win0_5.index (lastPt (i 0).val h0) (2 : Fin 3) * 1 + 1
    rw [hi.2.2]; omega

theorem final5 : (dats m 0 c).arrAt 5 cfg0.N = outM m c :=
  (dats m 0 c).arrAt_eq_of_cover 5 (outM m c) (flushed5 m c) (cover5)

/-- Output array 1 after the region: row `q` is what the run `q` left at its last point. -/
def outL : S2x1x1.Idx → Elt F .f32 :=
  fun i => (outsAt0 m c (lastPt (i 0).val (i 0).isLt).val (lastPt (i 0).val (i 0).isLt).isLt).2.2.2.2.1 (ix2 (0 : Fin 1) (0 : Fin 1))

theorem after6_last (t : Fin cfg0.N) (h49 : t.val % 50 = 49) :
    (dats m 0 c).after 6 t = k0_pay5 (outsAt0 m c t.val t.isLt).2.2.2.2.1 := by
  have h0 : ¬t.val % 50 = 0 := by omega
  obtain ⟨o5, o6, o7⟩ := outs_last m c t h0 h49
  obtain ⟨s0, s1, s2⟩ := trip_next m c t h0
  rw [after0_6, o6, s1]

theorem flushed6 (t : Fin cfg0.N) (hf : (cfg0.win 6).flush t = true) :
    (dats m 0 c).flushed 6 t = ((cfg0.win 6).blk t).view.read (Elt F) (outL m c) := by
  have h49 : t.val % 50 = 49 := (flush0_6 t).mp hf
  have hi := idx6 t
  show (cfg0.win 6).cut (grid0.coords t) ((dats m 0 c).after 6 t) = _
  rw [after6_last m c t h49]
  funext y
  rw [View.read_apply]
  show k0_pay5 (outsAt0 m c t.val t.isLt).2.2.2.2.1 y = outL m c (((cfg0.win 6).blk t).view.emb y)
  have hy0 : (y 0).val < 1 := (y 0).isLt
  have hy1 : (y 1).val < 1 := (y 1).isLt
  have hy2 : (y 2).val < 1 := (y 2).isLt
  have hy : y = ix3 (0 : Fin 1) (0 : Fin 1) (0 : Fin 1) := funext fun a => Fin.ext (by
    match a with
    | ⟨0, _⟩ => show (y 0).val = 0; omega
    | ⟨1, _⟩ => show (y 1).val = 0; omega
    | ⟨2, _⟩ => show (y 2).val = 0; omega)
  have hl : k0_pay5 (outsAt0 m c t.val t.isLt).2.2.2.2.1 y = (outsAt0 m c t.val t.isLt).2.2.2.2.1 (ix2 (0 : Fin 1) (0 : Fin 1)) := by
    rw [hy]
    unfold k0_pay5
    exact shapeCast_ab_1ab_apply _ _ _ _ _
  rw [hl]
  unfold outL
  have hn : (lastPt ((((cfg0.win 6).blk t).view.emb y) 0).val ((((cfg0.win 6).blk t).view.emb y) 0).isLt).val = t.val := by
    show 50 * (win0_6.index t (0 : Fin 3) * 1 + 1 * (y 0).val) + 49 = t.val
    rw [hi.1]; omega
  rw [trip_congr m c hn _ t.isLt]

theorem cover6 (i : S2x1x1.Idx) :
    ∃ t : Fin cfg0.N, (cfg0.win 6).flush t = true ∧ i ∈ ((cfg0.win 6).blk t).view.set := by
  have h0 : (i 0).val < 2 := (i 0).isLt
  have h1 : (i 1).val < 1 := (i 1).isLt
  have h2 : (i 2).val < 1 := (i 2).isLt
  have hi := idx6 (lastPt (i 0).val h0)
  refine ⟨lastPt (i 0).val h0, (flush0_6 _).mpr (by show (50 * (i 0).val + 49) % 50 = 49; omega), ?_⟩
  show i ∈ ((View.whole main_v6_1).slice (win0_6.rect (lastPt (i 0).val h0))).set
  rw [View.set_slice_whole, Rect.mem_set_unit]
  intro a
  match a with
  | ⟨0, _⟩ =>
    show win0_6.index (lastPt (i 0).val h0) (0 : Fin 3) * 1 ≤ (i 0).val
      ∧ (i 0).val < win0_6.index (lastPt (i 0).val h0) (0 : Fin 3) * 1 + 1
    rw [hi.1]; show (50 * (i 0).val + 49) / 50 * 1 ≤ (i 0).val ∧ (i 0).val < (50 * (i 0).val + 49) / 50 * 1 + 1; omega
  | ⟨1, _⟩ =>
    show win0_6.index (lastPt (i 0).val h0) (1 : Fin 3) * 1 ≤ (i 1).val
      ∧ (i 1).val < win0_6.index (lastPt (i 0).val h0) (1 : Fin 3) * 1 + 1
    rw [hi.2.1]; omega
  | ⟨2, _⟩ =>
    show win0_6.index (lastPt (i 0).val h0) (2 : Fin 3) * 1 ≤ (i 2).val
      ∧ (i 2).val < win0_6.index (lastPt (i 0).val h0) (2 : Fin 3) * 1 + 1
    rw [hi.2.2]; omega

theorem final6 : (dats m 0 c).arrAt 6 cfg0.N = outL m c :=
  (dats m 0 c).arrAt_eq_of_cover 6 (outL m c) (flushed6 m c) (cover6)

/-- Output array 2 after the region: row `q` is what the run `q` left at its last point. -/
def outA : S2x1x1024.Idx → Elt F .f32 :=
  fun i => (outsAt0 m c (lastPt (i 0).val (i 0).isLt).val (lastPt (i 0).val (i 0).isLt).isLt).2.2.2.2.2 (ix2 (0 : Fin 1) (⟨(i 2).val, (i 2).isLt⟩ : Fin 1024))

theorem after7_last (t : Fin cfg0.N) (h49 : t.val % 50 = 49) :
    (dats m 0 c).after 7 t = k0_pay6 (outsAt0 m c t.val t.isLt).2.2.2.2.2 := by
  have h0 : ¬t.val % 50 = 0 := by omega
  obtain ⟨o5, o6, o7⟩ := outs_last m c t h0 h49
  obtain ⟨s0, s1, s2⟩ := trip_next m c t h0
  rw [after0_7, o7, s2]

theorem flushed7 (t : Fin cfg0.N) (hf : (cfg0.win 7).flush t = true) :
    (dats m 0 c).flushed 7 t = ((cfg0.win 7).blk t).view.read (Elt F) (outA m c) := by
  have h49 : t.val % 50 = 49 := (flush0_7 t).mp hf
  have hi := idx7 t
  show (cfg0.win 7).cut (grid0.coords t) ((dats m 0 c).after 7 t) = _
  rw [after7_last m c t h49]
  funext y
  rw [View.read_apply]
  show k0_pay6 (outsAt0 m c t.val t.isLt).2.2.2.2.2 y = outA m c (((cfg0.win 7).blk t).view.emb y)
  have hy0 : (y 0).val < 1 := (y 0).isLt
  have hy1 : (y 1).val < 1 := (y 1).isLt
  have hy2 : (y 2).val < 1024 := (y 2).isLt
  have hy : y = ix3 (0 : Fin 1) (0 : Fin 1) (⟨(y 2).val, (y 2).isLt⟩ : Fin 1024) := funext fun a => Fin.ext (by
    match a with
    | ⟨0, _⟩ => show (y 0).val = 0; omega
    | ⟨1, _⟩ => show (y 1).val = 0; omega
    | ⟨2, _⟩ => rfl)
  have hl : k0_pay6 (outsAt0 m c t.val t.isLt).2.2.2.2.2 y = (outsAt0 m c t.val t.isLt).2.2.2.2.2 (ix2 (0 : Fin 1) (⟨(y 2).val, (y 2).isLt⟩ : Fin 1024)) := by
    rw [hy]
    unfold k0_pay6
    exact shapeCast_ab_1ab_apply _ _ _ _ _
  rw [hl]
  unfold outA
  have hn : (lastPt ((((cfg0.win 7).blk t).view.emb y) 0).val ((((cfg0.win 7).blk t).view.emb y) 0).isLt).val = t.val := by
    show 50 * (win0_7.index t (0 : Fin 3) * 1 + 1 * (y 0).val) + 49 = t.val
    rw [hi.1]; omega
  rw [trip_congr m c hn _ t.isLt]
  refine congrArg _ (congrArg (ix2 (0 : Fin 1)) (Fin.ext ?_))
  show (y 2).val = win0_7.index t (2 : Fin 3) * 1024 + 1 * (y 2).val
  rw [hi.2.2]; omega

theorem cover7 (i : S2x1x1024.Idx) :
    ∃ t : Fin cfg0.N, (cfg0.win 7).flush t = true ∧ i ∈ ((cfg0.win 7).blk t).view.set := by
  have h0 : (i 0).val < 2 := (i 0).isLt
  have h1 : (i 1).val < 1 := (i 1).isLt
  have h2 : (i 2).val < 1024 := (i 2).isLt
  have hi := idx7 (lastPt (i 0).val h0)
  refine ⟨lastPt (i 0).val h0, (flush0_7 _).mpr (by show (50 * (i 0).val + 49) % 50 = 49; omega), ?_⟩
  show i ∈ ((View.whole main_v6_2).slice (win0_7.rect (lastPt (i 0).val h0))).set
  rw [View.set_slice_whole, Rect.mem_set_unit]
  intro a
  match a with
  | ⟨0, _⟩ =>
    show win0_7.index (lastPt (i 0).val h0) (0 : Fin 3) * 1 ≤ (i 0).val
      ∧ (i 0).val < win0_7.index (lastPt (i 0).val h0) (0 : Fin 3) * 1 + 1
    rw [hi.1]; show (50 * (i 0).val + 49) / 50 * 1 ≤ (i 0).val ∧ (i 0).val < (50 * (i 0).val + 49) / 50 * 1 + 1; omega
  | ⟨1, _⟩ =>
    show win0_7.index (lastPt (i 0).val h0) (1 : Fin 3) * 1 ≤ (i 1).val
      ∧ (i 1).val < win0_7.index (lastPt (i 0).val h0) (1 : Fin 3) * 1 + 1
    rw [hi.2.1]; omega
  | ⟨2, _⟩ =>
    show win0_7.index (lastPt (i 0).val h0) (2 : Fin 3) * 1024 ≤ (i 2).val
      ∧ (i 2).val < win0_7.index (lastPt (i 0).val h0) (2 : Fin 3) * 1024 + 1024
    rw [hi.2.2]; omega

theorem final7 : (dats m 0 c).arrAt 7 cfg0.N = outA m c :=
  (dats m 0 c).arrAt_eq_of_cover 7 (outA m c) (flushed7 m c) (cover7)

/-- Row `q` of the three arrays is the triple after point `50 q + 49`. -/
theorem out_row (q : Fin 2) (n : ℕ) (hn : n = 50 * q.val + 49) (h : n < cfg0.N) :
    outM m c (ix3 q (0 : Fin 1) (0 : Fin 1)) = (outsAt0 m c n h).2.2.2.1 (ix2 (0 : Fin 1) (0 : Fin 1))
    ∧ outL m c (ix3 q (0 : Fin 1) (0 : Fin 1)) = (outsAt0 m c n h).2.2.2.2.1 (ix2 (0 : Fin 1) (0 : Fin 1))
    ∧ ∀ j : Fin 1024, outA m c (ix3 q (0 : Fin 1) j) = (outsAt0 m c n h).2.2.2.2.2 (ix2 (0 : Fin 1) j) := by
  subst hn
  unfold outM outL outA
  refine ⟨?_, ?_, fun j => ?_⟩
  · rw [trip_congr m c (show (lastPt q.val q.isLt).val = 50 * q.val + 49 from rfl) _ h]
  · rw [trip_congr m c (show (lastPt q.val q.isLt).val = 50 * q.val + 49 from rfl) _ h]
  · rw [trip_congr m c (show (lastPt q.val q.isLt).val = 50 * q.val + 49 from rfl) _ h]

end AnyValues

end Cert.KernelIdeal.Result

end
-- ==== Proof.Merge.lean ====
import proofs.«120143_j45724221833328_2_alg».proof.Proof.Result
import proofs.«120143_j45724221833328_2_alg».proof.Proof.Softmax

/-!
The host lines after the region, as one function of the three arrays, read at an index.

With `(m_q, l_q, acc_q)` the rows `q = 0, 1` of the arrays and `M = max m_0 m_1`, column `j` of the result is
`(e^{m_0 - M} acc_0 j + e^{m_1 - M} acc_1 j) / (e^{m_0 - M} l_0 + e^{m_1 - M} l_1)`.
-/

set_option maxRecDepth 16384

noncomputable section
open Idealize.ShloMosaic Idealize.ShloMosaic.TcCoe Idealize.SL.Sem

namespace Cert.KernelIdeal.Merge
open Cert.KernelIdeal Cert.KernelIdeal.Gen Cert.KernelIdeal.Result Idealize.ShloMosaic.ValueIdx

/-- The host's merge of the two runs' triples. -/
def merge (M L : FVec Ideal S2x1x1 .f32) (A : FVec Ideal S2x1x1024 .f32) : FVec Ideal S1x1024 .f32 :=
  let v7 : FVec Ideal S1x1x1 .f32 := extractStridedSlice S1x1x1 ![0, 0, 0] M slices_S2x1x1_S1x1x1_0_0_0
  let v8 : FVec Ideal S_ .f32 := shapeCast S_ v7 shapeCasts_S1x1x1_S_
  let v9 : FVec Ideal S1x1x1 .f32 := extractStridedSlice S1x1x1 ![1, 0, 0] M slices_S2x1x1_S1x1x1_1_0_0
  let v10 : FVec Ideal S_ .f32 := shapeCast S_ v9 shapeCasts_S1x1x1_S_
  let v11 : FVec Ideal S1x1x1 .f32 := extractStridedSlice S1x1x1 ![0, 0, 0] L slices_S2x1x1_S1x1x1_0_0_0
  let v12 : FVec Ideal S_ .f32 := shapeCast S_ v11 shapeCasts_S1x1x1_S_
  let v13 : FVec Ideal S1x1x1 .f32 := extractStridedSlice S1x1x1 ![1, 0, 0] L slices_S2x1x1_S1x1x1_1_0_0
  let v14 : FVec Ideal S_ .f32 := shapeCast S_ v13 shapeCasts_S1x1x1_S_
  let v15 : FVec Ideal S1x1x1024 .f32 := extractStridedSlice S1x1x1024 ![0, 0, 0] A slices_S2x1x1024_S1x1x1024_0_0_0
  let v16 : FVec Ideal S1024 .f32 := shapeCast S1024 v15 shapeCasts_S1x1x1024_S1024
  let v17 : FVec Ideal S1x1x1024 .f32 := extractStridedSlice S1x1x1024 ![1, 0, 0] A slices_S2x1x1024_S1x1x1024_1_0_0
  let v18 : FVec Ideal S1024 .f32 := shapeCast S1024 v17 shapeCasts_S1x1x1024_S1024
  let v19 : FVec Ideal S_ .f32 := maximumf v8 v10
  let v20 : FVec Ideal S_ .f32 := subf v8 v19
  let v21 : FVec Ideal S_ .f32 := Host.exp v20
  let v22 : FVec Ideal S_ .f32 := subf v10 v19
  let v23 : FVec Ideal S_ .f32 := Host.exp v22
  let v24 : FVec Ideal S_ .f32 := mulf v21 v12
  let v25 : FVec Ideal S_ .f32 := mulf v23 v14
  let v26 : FVec Ideal S_ .f32 := addf v24 v25
  let v27 : FVec Ideal S1024 .f32 := broadcastInDim S1024 ![] bcast_S_S1024 v21
  let v28 : FVec Ideal S1024 .f32 := mulf v27 v16
  let v29 : FVec Ideal S1024 .f32 := broadcastInDim S1024 ![] bcast_S_S1024 v23
  let v30 : FVec Ideal S1024 .f32 := mulf v29 v18
  let v31 : FVec Ideal S1024 .f32 := addf v28 v30
  let v32 : FVec Ideal S1024 .f32 := broadcastInDim S1024 ![] bcast_S_S1024 v26
  let v33 : FVec Ideal S1024 .f32 := Host.divf v31 v32
  shapeCast S1x1024 v33 shapeCasts_S1024_S1x1024

/-! The layout lines of the merge, read at an index. -/

theorem row_apply (v : FVec Ideal S1024 .f32) (j : Fin 1024) :
    shapeCast S1x1024 v shapeCasts_S1024_S1x1024 (ix2 (0 : Fin 1) j) = v (ix1 j) :=
  shapeCast_a_1a_apply v shapeCasts_S1024_S1x1024 (0 : Fin 1) j

theorem spread_apply (v : FVec Ideal S_ .f32) (j : Fin 1024) :
    broadcastInDim S1024 ![] bcast_S_S1024 v (ix1 j) = v ix0 :=
  broadcastInDim_apply _ bcast_S_S1024 v (ix1 j) ix0 (fun a => a.elim0)

theorem flat_apply (v : FVec Ideal S1x1x1024 .f32) (j : Fin 1024) :
    shapeCast S1024 v shapeCasts_S1x1x1024_S1024 (ix1 j) = v (ix3 (0 : Fin 1) (0 : Fin 1) j) :=
  shapeCast_apply v shapeCasts_S1x1x1024_S1024 _ _ (by
    rw [Shape.rowMajor_val_three, Shape.rowMajor_val_one]
    show (0 * 1 + 0) * 1024 + j.val = j.val
    omega)

theorem scalar_apply (v : FVec Ideal S1x1x1 .f32) :
    shapeCast S_ v shapeCasts_S1x1x1_S_ ix0 = v (ix3 (0 : Fin 1) (0 : Fin 1) (0 : Fin 1)) :=
  shapeCast_apply v shapeCasts_S1x1x1_S_ _ _ (by
    have h1 := (S1x1x1.rowMajor (ix3 (0 : Fin 1) (0 : Fin 1) (0 : Fin 1))).isLt
    have h2 := (S_.rowMajor ix0).isLt
    have e1 : S1x1x1.numel = 1 := by decide
    have e2 : S_.numel = 1 := by decide
    omega)

theorem slice_scalar0 (X : FVec Ideal S2x1x1 .f32) :
    extractStridedSlice S1x1x1 ![0, 0, 0] X slices_S2x1x1_S1x1x1_0_0_0 (ix3 (0 : Fin 1) (0 : Fin 1) (0 : Fin 1))
      = X (ix3 (0 : Fin 2) (0 : Fin 1) (0 : Fin 1)) :=
  extractStridedSlice_apply _ X _ _ _ (fun a => by match a with | ⟨0, _⟩ => rfl | ⟨1, _⟩ => rfl | ⟨2, _⟩ => rfl)

theorem slice_scalar1 (X : FVec Ideal S2x1x1 .f32) :
    extractStridedSlice S1x1x1 ![1, 0, 0] X slices_S2x1x1_S1x1x1_1_0_0 (ix3 (0 : Fin 1) (0 : Fin 1) (0 : Fin 1))
      = X (ix3 (1 : Fin 2) (0 : Fin 1) (0 : Fin 1)) :=
  extractStridedSlice_apply _ X _ _ _ (fun a => by match a with | ⟨0, _⟩ => rfl | ⟨1, _⟩ => rfl | ⟨2, _⟩ => rfl)

theorem slice_row0 (X : FVec Ideal S2x1x1024 .f32) (j : Fin 1024) :
    extractStridedSlice S1x1x1024 ![0, 0, 0] X slices_S2x1x1024_S1x1x1024_0_0_0 (ix3 (0 : Fin 1) (0 : Fin 1) j)
      = X (ix3 (0 : Fin 2) (0 : Fin 1) j) :=
  extractStridedSlice_apply _ X _ _ _ (fun a => by
    match a with | ⟨0, _⟩ => rfl | ⟨1, _⟩ => rfl | ⟨2, _⟩ => exact (Nat.zero_add _).symm)

theorem slice_row1 (X : FVec Ideal S2x1x1024 .f32) (j : Fin 1024) :
    extractStridedSlice S1x1x1024 ![1, 0, 0] X slices_S2x1x1024_S1x1x1024_1_0_0 (ix3 (0 : Fin 1) (0 : Fin 1) j)
      = X (ix3 (1 : Fin 2) (0 : Fin 1) j) :=
  extractStridedSlice_apply _ X _ _ _ (fun a => by
    match a with | ⟨0, _⟩ => rfl | ⟨1, _⟩ => rfl | ⟨2, _⟩ => exact (Nat.zero_add _).symm)

theorem hostDivf_apply {s : Shape} (a b : FVec Ideal s .f32) (i : s.Idx) :
    Host.divf a b i = Ideal.div (a i) (b i) := rfl
theorem hostExp_apply {s : Shape} (a : FVec Ideal s .f32) (i : s.Idx) : Host.exp a i = Ideal.exp (a i) := rfl

/-- The merge, read at column `j`. -/
theorem merge_apply (M L : FVec Ideal S2x1x1 .f32) (A : FVec Ideal S2x1x1024 .f32) (j : Fin 1024) :
    merge M L A (ix2 (0 : Fin 1) j)
      = Ideal.div
          (Ideal.exp (M (ix3 (0 : Fin 2) (0 : Fin 1) (0 : Fin 1))
              - max (M (ix3 (0 : Fin 2) (0 : Fin 1) (0 : Fin 1))) (M (ix3 (1 : Fin 2) (0 : Fin 1) (0 : Fin 1))))
              * A (ix3 (0 : Fin 2) (0 : Fin 1) j)
            + Ideal.exp (M (ix3 (1 : Fin 2) (0 : Fin 1) (0 : Fin 1))
              - max (M (ix3 (0 : Fin 2) (0 : Fin 1) (0 : Fin 1))) (M (ix3 (1 : Fin 2) (0 : Fin 1) (0 : Fin 1))))
              * A (ix3 (1 : Fin 2) (0 : Fin 1) j))
          (Ideal.exp (M (ix3 (0 : Fin 2) (0 : Fin 1) (0 : Fin 1))
              - max (M (ix3 (0 : Fin 2) (0 : Fin 1) (0 : Fin 1))) (M (ix3 (1 : Fin 2) (0 : Fin 1) (0 : Fin 1))))
              * L (ix3 (0 : Fin 2) (0 : Fin 1) (0 : Fin 1))
            + Ideal.exp (M (ix3 (1 : Fin 2) (0 : Fin 1) (0 : Fin 1))
              - max (M (ix3 (0 : Fin 2) (0 : Fin 1) (0 : Fin 1))) (M (ix3 (1 : Fin 2) (0 : Fin 1) (0 : Fin 1))))
              * L (ix3 (1 : Fin 2) (0 : Fin 1) (0 : Fin 1))) := by
  simp only [merge, row_apply, hostDivf_apply, addf_apply, mulf_apply, flat_apply, slice_row0, slice_row1]
  rw [spread_apply, spread_apply, spread_apply]
  simp only [hostExp_apply, addf_apply, mulf_apply, subf_apply, maximumf_apply]
  rw [scalar_apply, scalar_apply, scalar_apply, scalar_apply, slice_scalar0, slice_scalar1, slice_scalar0, slice_scalar1]

section
variable (m : (ℓ : Loc nD τ sig) → Buf (Elt Ideal) ℓ) (c : Dev nD)

set_option maxHeartbeats 2000000 in
/-- The result array is the merge of the three arrays the region leaves. -/
theorem tail_eq :
    Pipeline.afterTail₀ cfgs (dats m) 0 (V0 m) [hostOps1] c main_v34
      = merge (outM m c) (outL m c) (outA m c) := by
  unfold Pipeline.afterTail₀
  show StableHlo.after hostOps1 _ (Proc.devRef .tc main_v34) = _
  after_results_simp
  rw [show Pipeline.withArrays spec0 c (V0 m c) (fun w => (dats m 0 c).arrAt w cfg0.N) (Proc.devRef .tc main_v6_0)
        = outM m c from (Pipeline.withArrays_arr spec0 launch0.win.arr_inj c _ _ 5).trans (final5 m c),
    show Pipeline.withArrays spec0 c (V0 m c) (fun w => (dats m 0 c).arrAt w cfg0.N) (Proc.devRef .tc main_v6_1)
        = outL m c from (Pipeline.withArrays_arr spec0 launch0.win.arr_inj c _ _ 6).trans (final6 m c),
    show Pipeline.withArrays spec0 c (V0 m c) (fun w => (dats m 0 c).arrAt w cfg0.N) (Proc.devRef .tc main_v6_2)
        = outA m c from (Pipeline.withArrays_arr spec0 launch0.win.arr_inj c _ _ 7).trans (final7 m c)]
  rfl

end

end Cert.KernelIdeal.Merge

end
-- ==== Proof.Finite.lean ====
import proofs.«120143_j45724221833328_2_alg».proof.Pre_finite_inputs
import proofs.«120143_j45724221833328_2_alg».proof.Proof.Spec
import Idealize.ShloMosaic.Lib.ReduceAll
import Idealize.ShloMosaic.Lib.Affine

/-!
The precondition, read: every entry of every argument array is a real number.

The precondition is the conjunction, over the seven arrays, of `all (|v| < +∞)`.  An extended real whose absolute
value is below `+∞` is neither infinity, hence a real.
-/

noncomputable section

namespace Cert.Finite

open Idealize.ShloMosaic Cert.Pre_finite_inputs Cert.Spec

/-- The word `0x7F800000` denotes `+∞`. -/
theorem ofBits_pos_inf : Ideal.ofBits .f32 0x7F800000#32 = (⊤ : EReal) := by
  simp [Ideal.ofBits, Ideal.ieee]

/-- `|z| < +∞` makes `z` a real. -/
theorem isReal_of_abs_lt (z : EReal)
    (h : Ideal.cmp .olt (max z (-z)) (Ideal.ofBits .f32 0x7F800000#32) = 1#1) : IsReal z := by
  rw [ofBits_pos_inf] at h
  induction z using EReal.rec with
  | bot => simp [Ideal.cmp] at h
  | top => simp [Ideal.cmp] at h
  | coe r => exact ⟨r, rfl⟩

instance : Subsingleton S_.Idx := ⟨fun a b => funext fun d => d.elim0⟩

variable [Facts]

/-- Every entry of every argument is a real. -/
theorem all_real {X : FVec Ideal S200000x1024 .f32} {Vw : FVec Ideal S32x1024 .f32} {Vb : FVec Ideal S32 .f32}
    {Uw : FVec Ideal S32x1024 .f32} {Ub : FVec Ideal S32 .f32} {ww : FVec Ideal S1x32 .f32} {wb : FVec Ideal S1 .f32}
    (h : fn (F := Ideal) X Vw Vb Uw Ub ww wb = fun _ => 1#1) :
    (∀ i, IsReal (X i)) ∧ (∀ i, IsReal (Vw i)) ∧ (∀ i, IsReal (Vb i)) ∧ (∀ i, IsReal (Uw i))
      ∧ (∀ i, IsReal (Ub i)) ∧ (∀ i, IsReal (ww i)) ∧ (∀ i, IsReal (wb i)) := by
  have h0 := congrFun h ValueIdx.ix0
  dsimp only [fn, fn_part1] at h0
  obtain ⟨h5, e6⟩ := IntOp.andi_eq_one.mp h0
  obtain ⟨h4, e5⟩ := IntOp.andi_eq_one.mp h5
  obtain ⟨h3, e4⟩ := IntOp.andi_eq_one.mp h4
  obtain ⟨h2, e3⟩ := IntOp.andi_eq_one.mp h3
  obtain ⟨h1, e2⟩ := IntOp.andi_eq_one.mp h2
  obtain ⟨e0, e1⟩ := IntOp.andi_eq_one.mp h1
  exact ⟨fun i => isReal_of_abs_lt _ (Host.reduce_andi_all _ _ _ _ _ e0 i),
    fun i => isReal_of_abs_lt _ (Host.reduce_andi_all _ _ _ _ _ e1 i),
    fun i => isReal_of_abs_lt _ (Host.reduce_andi_all _ _ _ _ _ e2 i),
    fun i => isReal_of_abs_lt _ (Host.reduce_andi_all _ _ _ _ _ e3 i),
    fun i => isReal_of_abs_lt _ (Host.reduce_andi_all _ _ _ _ _ e4 i),
    fun i => isReal_of_abs_lt _ (Host.reduce_andi_all _ _ _ _ _ e5 i),
    fun i => isReal_of_abs_lt _ (Host.reduce_andi_all _ _ _ _ _ e6 i)⟩

end Cert.Finite

end
-- ==== Proof.KernelRun.lean ====
import proofs.«120143_j45724221833328_2_alg».proof.Proof.Blocks
import proofs.«120143_j45724221833328_2_alg».proof.Proof.Merge
import proofs.«120143_j45724221833328_2_alg».proof.Proof.Finite

/-!
The idealized kernel's run, read: on finite arguments its result array holds the attention-weighted average.

The two runs of the grid leave, at real scales, the sums `∑ e^{a}` and `∑ e^{a} x` over rows `0 … 99999` and
`100000 … 199999`; the host's merge adds them and divides, and the scales cancel.
-/

set_option maxRecDepth 16384

noncomputable section
open Idealize.ShloMosaic Idealize.ShloMosaic.TcCoe Idealize.SL.Sem

namespace Cert.KernelIdeal.Value
open Cert.KernelIdeal Cert.KernelIdeal.Gen Cert.KernelIdeal.StepValue Cert.KernelIdeal.Fold Cert.KernelIdeal.Blocks
open Cert.KernelIdeal.Result Cert.KernelIdeal.Merge Idealize.ShloMosaic.ValueIdx Cert.Softmax Cert.Spec

variable (m : (ℓ : Loc nD τ sig) → Buf (Elt Ideal) ℓ) (ρ : Dev nD → PrngReg)

/-- The logits and the features as reals. -/
def aR (c : Dev nD) (n : Fin 200000) : ℝ := (Spec.logit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n).toReal
def xR (c : Dev nD) (n : Fin 200000) (k : Fin 1024) : ℝ := ((m ((c.tc : Thread nD τ).loc main_arg0)) (ix2 n k)).toReal

/-- The same, indexed by natural numbers (zero past the last row). -/
def aN (c : Dev nD) (n : ℕ) : ℝ := if h : n < 200000 then aR m c ⟨n, h⟩ else 0
def xN (c : Dev nD) (n : ℕ) (k : Fin 1024) : ℝ := if h : n < 200000 then xR m c ⟨n, h⟩ k else 0

/-- What the result array holds: the attention-weighted average of each column. -/
def result (c : Dev nD) : S1x1024.Idx → EReal :=
  fun i => ((Spec.out (aR m c) (xR m c) ⟨(i 1).val, (i 1).isLt⟩ : ℝ) : EReal)

theorem coe_of_isReal {z : EReal} (h : IsReal z) : z = ((z.toReal : ℝ) : EReal) := by
  obtain ⟨r, rfl⟩ := h
  rfl

section
variable [Cert.Pre_finite_inputs.Facts] (c : Dev nD)
variable (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1)

include hpre in
theorem logit_coe (n : Fin 200000) : Spec.logit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n = ((aR m c n : ℝ) : EReal) := by
  obtain ⟨h0, h1, h2, h3, h4, h5, h6⟩ := Cert.Finite.all_real hpre
  exact coe_of_isReal (Spec.logit_real h0 h1 h2 h3 h4 h5 h6 n)

include hpre in
theorem x_coe (n : Fin 200000) (k : Fin 1024) : (m ((c.tc : Thread nD τ).loc main_arg0)) (ix2 n k) = ((xR m c n k : ℝ) : EReal) := by
  obtain ⟨h0, -⟩ := Cert.Finite.all_real hpre
  exact coe_of_isReal (h0 _)

include hpre in
theorem block_a (t : Fin cfg0.N) (r : Fin 2000) :
    blockLogit (iblk m c 0 t) (iblk m c 1 t) (iblk m c 2 t) (iblk m c 3 t) (iblk m c 4 t) r = ((aN m c (2000 * t.val + r.val) : ℝ) : EReal) := by
  rw [blockLogit_eq, logit_coe m c hpre]
  unfold aN row
  have hlt : 2000 * t.val + r.val < 200000 := by have := t.isLt; have hN : cfg0.N = 100 := N_0; have := r.isLt; omega
  rw [dif_pos hlt]

include hpre in
theorem block_x (t : Fin cfg0.N) (r : Fin 2000) (k : Fin 1024) :
    (iblk m c 0 t : Vec Ideal S2000x1024 .f32) (ix2 r k) = ((xN m c (2000 * t.val + r.val) k : ℝ) : EReal) := by
  rw [blk0, x_coe m c hpre]
  unfold xN row
  have hlt : 2000 * t.val + r.val < 200000 := by have := t.isLt; have hN : cfg0.N = 100 := N_0; have := r.isLt; omega
  rw [dif_pos hlt]

/-- The sums over a whole run, and over both. -/
theorem sumE_both :
    sumE (fun t r => aN m c (2000 * t + r.val)) 0 49 + sumE (fun t r => aN m c (2000 * t + r.val)) 50 99
      = ∑ n : Fin 200000, Real.exp (aR m c n) := by
  unfold sumE
  rw [sum_blocks (fun n => Real.exp (aN m c n))]
  refine Finset.sum_congr rfl fun n _ => ?_
  unfold aN
  rw [dif_pos n.isLt]

theorem sumX_both (j : Fin 1024) :
    sumX (fun t r => aN m c (2000 * t + r.val)) (fun t r k => xN m c (2000 * t + r.val) k) 0 49 j
      + sumX (fun t r => aN m c (2000 * t + r.val)) (fun t r k => xN m c (2000 * t + r.val) k) 50 99 j
      = ∑ n : Fin 200000, Real.exp (aR m c n) * xR m c n j := by
  unfold sumX
  rw [sum_blocks (fun n => Real.exp (aN m c n) * xN m c n j)]
  refine Finset.sum_congr rfl fun n _ => ?_
  unfold aN xN
  rw [dif_pos n.isLt, dif_pos n.isLt]

include hpre in
/-- The merge of what the two runs leave is the attention-weighted average. -/
theorem merge_result : merge (outM m c) (outL m c) (outA m c) = result m c := by
  have hN : cfg0.N = 100 := N_0
  have s0 := scaled m c (fun t r => aN m c (2000 * t + r.val)) (fun t r k => xN m c (2000 * t + r.val) k)
    (block_a m c hpre) (block_x m c hpre) 49 (by omega)
  have s1 := scaled m c (fun t r => aN m c (2000 * t + r.val)) (fun t r k => xN m c (2000 * t + r.val) k)
    (block_a m c hpre) (block_x m c hpre) 99 (by omega)
  funext i
  obtain ⟨p, q, rfl⟩ : ∃ (p : Fin 1) (q : Fin 1024), i = ix2 p q := ⟨i 0, i 1, eq_ix2 i⟩
  obtain rfl : p = 0 := Subsingleton.elim _ _
  obtain ⟨a0, b0, c0⟩ := out_row m c 0 49 rfl (by omega)
  obtain ⟨a1, b1, c1⟩ := out_row m c 1 99 rfl (by omega)
  rw [merge_apply, a0, a1, b0, b1, c0, c1]
  have hE : sumE (fun t r => aN m c (2000 * t + r.val)) (49 - 49 % 50) 49
      + sumE (fun t r => aN m c (2000 * t + r.val)) (99 - 99 % 50) 99 ≠ 0 := by
    rw [show (49 - 49 % 50) = 0 from rfl, show (99 - 99 % 50) = 50 from rfl, sumE_both]
    exact (Finset.sum_pos (fun n _ => Real.exp_pos _) Finset.univ_nonempty).ne'
  refine (merge_div s0 s1 hE _).trans ?_
  unfold result Spec.out
  rw [show (49 - 49 % 50) = 0 from rfl, show (99 - 99 % 50) = 50 from rfl, sumE_both, sumX_both]

end

/-- The run of the idealized kernel on finite arguments: the result array at the attention-weighted average, the
    arguments unchanged. -/
theorem run [Cert.Pre_finite_inputs.Facts] (hall : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) :
    θ_run defs (onTc (τ := τ) (main (F := Ideal))) ⟨m, fun _ => 0, ρ⟩ fun r => ∀ c : Dev nD,
      r.2.mem ((c.tc : Thread nD τ).loc main_v34) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(((h c).2 main_v34 (Pipeline.mem_restRefs_of main_v34 (by decide) (by decide))).trans (tail_eq m c)).trans
        (merge_result m c (hall c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Value

end
-- ==== Proof.RefValue.lean ====
import proofs.«120143_j45724221833328_2_alg».proof.Proof.Gen.ReferenceIdeal.Read
import proofs.«120143_j45724221833328_2_alg».proof.Proof.Spec

/-!
The reference, read index by index.

Its logits are the specification's `logit`; it subtracts their maximum `B` (a real), exponentiates, divides by the
sum and contracts with the rows: column `j` of its result is `∑_n (e^{a_n - B} / ∑ e^{a - B}) · x_{n j}`, which is
the attention-weighted average `(∑ e^{a_n} x_{n j}) / ∑ e^{a_n}`.
-/

noncomputable section

namespace Cert.ReferenceIdeal.RefValue

open Cert.ReferenceIdeal Cert.ReferenceIdeal.Gen Cert.ReferenceIdeal.Read Idealize.ShloMosaic
open Idealize.ShloMosaic.ValueIdx Cert.Spec Cert.Softmax

variable (x0 : (⟨S200000x1024, .f32⟩ : BufTy).Contents (Elt Ideal)) (x1 : (⟨S32x1024, .f32⟩ : BufTy).Contents (Elt Ideal))
  (x2 : (⟨S32, .f32⟩ : BufTy).Contents (Elt Ideal)) (x3 : (⟨S32x1024, .f32⟩ : BufTy).Contents (Elt Ideal))
  (x4 : (⟨S32, .f32⟩ : BufTy).Contents (Elt Ideal)) (x5 : (⟨S1x32, .f32⟩ : BufTy).Contents (Elt Ideal))
  (x6 : (⟨S1, .f32⟩ : BufTy).Contents (Elt Ideal))

/-! The composed index maps of the generated stages, as coordinate tuples. -/

theorem e1 (n : Fin 200000) (h : Fin 32) (k : Fin 1024) :
    lidx_main_v1 (lidx_main_v19 (ix2 n (0 : Fin 1)) h) k = ix2 n k :=
  funext fun a => Fin.ext (by match a with | ⟨0, _⟩ => rfl | ⟨1, _⟩ => rfl)
theorem e2 (n : Fin 200000) (h : Fin 32) (k : Fin 1024) :
    idx_main_v0 (ridx_main_v1 (lidx_main_v19 (ix2 n (0 : Fin 1)) h) k) = ix2 h k :=
  funext fun a => Fin.ext (by match a with | ⟨0, _⟩ => rfl | ⟨1, _⟩ => rfl)
theorem e3 (n : Fin 200000) (h : Fin 32) :
    idx_main_v2 (idx_main_v3 (lidx_main_v19 (ix2 n (0 : Fin 1)) h)) = ix1 h :=
  funext fun a => Fin.ext (by match a with | ⟨0, _⟩ => rfl)
theorem e4 (n : Fin 200000) (h : Fin 32) (k : Fin 1024) :
    lidx_main_v7 (lidx_main_v19 (ix2 n (0 : Fin 1)) h) k = ix2 n k :=
  funext fun a => Fin.ext (by match a with | ⟨0, _⟩ => rfl | ⟨1, _⟩ => rfl)
theorem e5 (n : Fin 200000) (h : Fin 32) (k : Fin 1024) :
    idx_main_v6 (ridx_main_v7 (lidx_main_v19 (ix2 n (0 : Fin 1)) h) k) = ix2 h k :=
  funext fun a => Fin.ext (by match a with | ⟨0, _⟩ => rfl | ⟨1, _⟩ => rfl)
theorem e6 (n : Fin 200000) (h : Fin 32) :
    idx_main_v8 (idx_main_v9 (lidx_main_v19 (ix2 n (0 : Fin 1)) h)) = ix1 h :=
  funext fun a => Fin.ext (by match a with | ⟨0, _⟩ => rfl)
theorem e7 (n : Fin 200000) (h : Fin 32) :
    idx_main_v18 (ridx_main_v19 (ix2 n (0 : Fin 1)) h) = ix2 (0 : Fin 1) h :=
  funext fun a => Fin.ext (by match a with | ⟨0, _⟩ => rfl | ⟨1, _⟩ => rfl)
theorem e8 (n : Fin 200000) : idx_main_v20 (idx_main_v21 (ix2 n (0 : Fin 1))) = ix1 (0 : Fin 1) :=
  funext fun a => Fin.ext (by match a with | ⟨0, _⟩ => rfl)

/-- The reference's logit of row `n` is the specification's. -/
theorem logits_apply (n : Fin 200000) :
    val_main_v22 (F := Ideal) x0 x1 x2 x3 x4 x5 x6 (ix2 n (0 : Fin 1)) = logit x0 x1 x2 x3 x4 x5 x6 n := by
  rw [val_main_v22_apply, val_main_v19_apply, val_main_v21_apply, val_main_v20_apply]
  unfold logit
  simp only [val_main_v17_apply, val_main_v5_apply, val_main_v4_apply, val_main_v1_apply, val_main_v0_apply,
    val_main_v3_apply, val_main_v2_apply, val_main_v16_apply, val_main_v15_apply, val_main_cst_0_apply,
    val_main_v14_apply, val_main_v13_apply, val_main_cst_apply, val_main_v12_apply, val_main_v11_apply,
    val_main_v10_apply, val_main_v7_apply, val_main_v6_apply, val_main_v9_apply, val_main_v8_apply,
    val_main_v18_apply, e1, e2, e3, e4, e5, e6, e7, e8, Ideal.addf_def, Ideal.mulf_def, Ideal.hostUnary_tanh_def,
    Ideal.hostUnary_exp_def, Ideal.hostDivf_def, Ideal.hostNegf_def, Ideal.negf_def, Ideal.ofBits_def, ofBits_one,
    Ideal.logistic]

/-! The remaining composed index maps. -/

theorem f1 (j : Fin 1024) (k : Fin 200000) :
    idx_main_v23 (lidx_main_v35 (ix2 (0 : Fin 1) j) k) = ix2 k (0 : Fin 1) :=
  funext fun a => Fin.ext (by match a with | ⟨0, _⟩ => rfl | ⟨1, _⟩ => rfl)
theorem f2 (j : Fin 1024) (k : Fin 200000) :
    idx_main_v27 (idx_main_v28 (lidx_main_v35 (ix2 (0 : Fin 1) j) k)) = ix1 (0 : Fin 1) :=
  funext fun a => Fin.ext (by match a with | ⟨0, _⟩ => rfl)
theorem f3 (j : Fin 1024) (k : Fin 200000) :
    idx_main_v32 (idx_main_v33 (lidx_main_v35 (ix2 (0 : Fin 1) j) k)) = ix1 (0 : Fin 1) :=
  funext fun a => Fin.ext (by match a with | ⟨0, _⟩ => rfl)
theorem f4 (k : Fin 200000) : idx_main_v23 (idx_main_v31 (ix1 (0 : Fin 1)) k) = ix2 k (0 : Fin 1) :=
  funext fun a => Fin.ext (by match a with | ⟨0, _⟩ => rfl | ⟨1, _⟩ => rfl)
theorem f5 (k : Fin 200000) : idx_main_v27 (idx_main_v28 (idx_main_v31 (ix1 (0 : Fin 1)) k)) = ix1 (0 : Fin 1) :=
  funext fun a => Fin.ext (by match a with | ⟨0, _⟩ => rfl)
theorem f6 (j : Fin 1024) (k : Fin 200000) : ridx_main_v35 (ix2 (0 : Fin 1) j) k = ix2 k j :=
  funext fun a => Fin.ext (by match a with | ⟨0, _⟩ => rfl | ⟨1, _⟩ => rfl)

/-- The maximum the reference subtracts is a real. -/
theorem max_real (a : Fin 200000 → ℝ) (ha : ∀ n, logit x0 x1 x2 x3 x4 x5 x6 n = (a n : EReal)) :
    ∃ B : ℝ, val_main_v26 (F := Ideal) x0 x1 x2 x3 x4 x5 x6 (ix1 (0 : Fin 1)) = (B : EReal) := by
  obtain ⟨B, hB⟩ := fold_max_real (ι := Fin 200000) a
  refine ⟨B, ?_⟩
  have hfold : val_main_v24 (F := Ideal) x0 x1 x2 x3 x4 x5 x6 (ix1 (0 : Fin 1)) = (B : EReal) := by
    unfold val_main_v24
    rw [Host.reduce_eq_fold_single FloatOps.maximumf _ _ reducesTo_S1x200000_S1_d1 (by decide) h_S_ (ix1 (0 : Fin 1)), ← hB]
    show Finset.fold max (Ideal.ofBits .f32 0xFF800000#32) _ (Finset.univ : Finset (Fin 200000)) = _
    rw [ofBits_neg_inf]
    refine congrArg (fun f => Finset.fold max (⊥ : EReal) f (Finset.univ : Finset (Fin 200000))) (funext fun (k : Fin 200000) => ?_)
    show val_main_v23 (F := Ideal) x0 x1 x2 x3 x4 x5 x6 _ = (a k : EReal)
    rw [val_main_v23_apply]
    refine Eq.trans (congrArg (val_main_v22 (F := Ideal) x0 x1 x2 x3 x4 x5 x6) ?_) ((logits_apply x0 x1 x2 x3 x4 x5 x6 k).trans (ha k))
    exact funext fun a => Fin.ext (by match a with | ⟨0, _⟩ => rfl | ⟨1, _⟩ => rfl)
  rw [val_main_v26_apply, val_main_v25_apply, val_main_cst_2_apply, hfold]
  show max (Ideal.ofBits .f32 0xFF800000#32) (B : EReal) = _
  rw [ofBits_neg_inf]
  exact max_eq_right bot_le

/-- Column `j` of the reference's result is the attention-weighted average. -/
theorem result_apply (a : Fin 200000 → ℝ) (ha : ∀ n, logit x0 x1 x2 x3 x4 x5 x6 n = (a n : EReal))
    (x : Fin 200000 → Fin 1024 → ℝ) (hx : ∀ n k, x0 (ix2 n k) = (x n k : EReal)) (j : Fin 1024) :
    val_main_v35 (F := Ideal) x0 x1 x2 x3 x4 x5 x6 (ix2 (0 : Fin 1) j) = ((Spec.out a x j : ℝ) : EReal) := by
  obtain ⟨B, hB⟩ := max_real x0 x1 x2 x3 x4 x5 x6 a ha
  rw [val_main_v35_apply]
  simp only [val_main_v34_apply, val_main_v33_apply, val_main_v32_apply, val_main_v31_apply, val_main_v30_apply,
    val_main_v29_apply, val_main_v28_apply, val_main_v27_apply, val_main_v23_apply, val_main_cst_3_apply,
    f1, f2, f3, f4, f5, f6, logits_apply, ha, hx, hB, Ideal.hostDivf_def, Ideal.hostUnary_exp_def, Ideal.subf_def,
    Ideal.ofBits_def, Ideal.ofBits_zero_f32]
  exact normalised_sum a (fun n => x n j) B

end Cert.ReferenceIdeal.RefValue

end
-- ==== Proof.lean ====
/-
  Attention pooling over 200000 rows, streamed: the kernel against its direct reference.

  Both programs compute, for a feature matrix `x` of 200000 rows and 1024 columns, the logits
  `a_n = (∑_h tanh (x_n · V_h + bV_h) · σ (x_n · U_h + bU_h) · w_h) + b` with `σ z = 1 / (1 + e^{-z})`, and return
  the softmax-weighted average of the rows, `out_j = ∑_n softmax(a)_n · x_{n j}`.

  The reference subtracts the maximum logit, exponentiates, divides by the sum and contracts with `x`.  The kernel
  never holds all logits: each of two runs walks fifty blocks of 2000 rows keeping a running maximum `m`, a running
  sum `l = ∑ e^{a - m}` and running weighted row sums `acc_j = ∑ e^{a - m} x_j`, rescaling `l` and `acc` by
  `e^{m - m'}` whenever the maximum moves to `m'`; the host merges the two runs the same way and divides.

  Over the extended reals, on finite arguments, every logit is a real, so at every point the triple is
  `(M, e^{-M} E, e^{-M} X_j)` for some real `M` and the plain sums `E = ∑ e^{a}`, `X_j = ∑ e^{a} x_j` over the rows
  seen so far: `e^{M - M'} · e^{-M} = e^{-M'}`.  The scale cancels in the final quotient, `X_j / E`; and the
  reference's `∑_n (e^{a_n - B} / ∑ e^{a - B}) x_{n j}` is the same quotient for its own `B`.  Finiteness is used
  exactly there: products and quotients of sums are rearranged, which fails at infinities.

  The ideal pass rewrote nothing in the kernel, so the idealization claim is trivial; the three frame claims are the
  generated frame runs.
-/
import proofs.«120143_j45724221833328_2_alg».proof.Defs
import proofs.«120143_j45724221833328_2_alg».proof.Proof.Gen.Kernel
import proofs.«120143_j45724221833328_2_alg».proof.Proof.Gen.Kernel.Skeleton
import proofs.«120143_j45724221833328_2_alg».proof.Proof.Gen.Kernel.Launch
import proofs.«120143_j45724221833328_2_alg».proof.Proof.Gen.Kernel.Points
import proofs.«120143_j45724221833328_2_alg».proof.Proof.Gen.Kernel.Frame
import proofs.«120143_j45724221833328_2_alg».proof.Proof.Gen.KernelIdeal
import proofs.«120143_j45724221833328_2_alg».proof.Proof.Gen.KernelIdeal.Skeleton
import proofs.«120143_j45724221833328_2_alg».proof.Proof.Gen.KernelIdeal.Launch
import proofs.«120143_j45724221833328_2_alg».proof.Proof.Gen.KernelIdeal.Points
import proofs.«120143_j45724221833328_2_alg».proof.Proof.Gen.KernelIdeal.Frame
import proofs.«120143_j45724221833328_2_alg».proof.Proof.Gen.ReferenceIdeal
import proofs.«120143_j45724221833328_2_alg».proof.Proof.Gen.Pre_finite_inputs
import proofs.«120143_j45724221833328_2_alg».proof.Proof.Gen.ReferenceIdeal.Run
import proofs.«120143_j45724221833328_2_alg».proof.Proof.Gen.ReferenceIdeal.Read
import proofs.«120143_j45724221833328_2_alg».proof.Proof.KernelRun
import proofs.«120143_j45724221833328_2_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- On finite arguments that agree, both runs end with the attention-weighted average in their result arrays. -/
theorem algebraic : Cert.algebraic_KernelIdeal_ReferenceIdeal := by
  intro m ρ m' ρ' hpre hagree
  refine ⟨fun c => Cert.KernelIdeal.Value.result m c, Cert.KernelIdeal.Value.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq]
  obtain ⟨g0, g1, g2, g3, g4, g5, g6⟩ := hagree c
  rw [g0, g1, g2, g3, g4, g5, g6]
  funext i
  obtain ⟨p, q, rfl⟩ : ∃ (p : Fin 1) (q : Fin 1024), i = ix2 p q := ⟨i 0, i 1, eq_ix2 i⟩
  obtain rfl : p = 0 := Subsingleton.elim _ _
  exact Cert.ReferenceIdeal.RefValue.result_apply _ _ _ _ _ _ _ (Cert.KernelIdeal.Value.aR m c)
    (Cert.KernelIdeal.Value.logit_coe m c (hpre c)) (Cert.KernelIdeal.Value.xR m c)
    (Cert.KernelIdeal.Value.x_coe m c (hpre c)) _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
